-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x256 : Shape := ⟨3, ![32, 512, 256]⟩
abbrev S32x512x512 : Shape := ⟨3, ![32, 512, 512]⟩
abbrev S256x1 : Shape := ⟨2, ![256, 1]⟩
abbrev S_ : Shape := ⟨0, ![]⟩

class Facts : Prop where
  bcast_S_S32x512x256 : S_.BroadcastsInDim S32x512x256 (![] : Fin 0 → Fin S32x512x256.rank)
  reducesTo_S32x512x256_S_d0_1_2 : S32x512x256.ReducesTo [0, 1, 2] S_
  h_S_ : 0 < S_.numel
  bcast_S_S256x1 : S_.BroadcastsInDim S256x1 (![] : Fin 0 → Fin S256x1.rank)
  reducesTo_S256x1_S_d0_1 : S256x1.ReducesTo [0, 1] S_

variable [Facts]

def fn_part1 {F : FTy → Type} [FloatOps F] (main_arg5 : FVec F S256x1 .f32) (main_v13 : IVec S_ 1) (main_v16 : IVec S256x1 1) : IVec S_ 1 :=
  let main_c_5 : IVec S_ 1 := constantI S_ 1 1#1
  let main_v17 : IVec S_ 1 := (fun x v => Host.reduce IntOp.andi x v reducesTo_S256x1_S_d0_1 h_S_) main_v16 main_c_5
  let main_v18 : IVec S_ 1 := andi main_v13 main_v17
  let main_v19 : FVec F S256x1 .f32 := Host.absf main_arg5
  let main_cst_6 : FVec F S_ .f32 := constant S_ .f32 0x7F800000#32
  let main_v20 : FVec F S256x1 .f32 := broadcastInDim S256x1 ![] bcast_S_S256x1 main_cst_6
  let main_v21 : IVec S256x1 1 := cmpf .olt main_v19 main_v20
  let main_c_7 : IVec S_ 1 := constantI S_ 1 1#1
  let main_v22 : IVec S_ 1 := (fun x v => Host.reduce IntOp.andi x v reducesTo_S256x1_S_d0_1 h_S_) main_v21 main_c_7
  let main_v23 : IVec S_ 1 := andi main_v18 main_v22
  main_v23

def fn {F : FTy → Type} [FloatOps F] (main_arg0 : FVec F S32x512x256 .f32) (main_arg1 : IVec S32x512x512 32) (main_arg2 : FVec F S256x1 .f32) (main_arg3 : FVec F S256x1 .f32) (main_arg4 : FVec F S256x1 .f32) (main_arg5 : FVec F S256x1 .f32) : IVec S_ 1 :=
  let main_v0 : FVec F S32x512x256 .f32 := Host.absf main_arg0
  let main_cst : FVec F S_ .f32 := constant S_ .f32 0x7F800000#32
  let main_v1 : FVec F S32x512x256 .f32 := broadcastInDim S32x512x256 ![] bcast_S_S32x512x256 main_cst
  let main_v2 : IVec S32x512x256 1 := cmpf .olt main_v0 main_v1
  let main_c : IVec S_ 1 := constantI S_ 1 1#1
  let main_v3 : IVec S_ 1 := (fun x v => Host.reduce IntOp.andi x v reducesTo_S32x512x256_S_d0_1_2 h_S_) main_v2 main_c
  let main_v4 : FVec F S256x1 .f32 := Host.absf main_arg2
  let main_cst_0 : FVec F S_ .f32 := constant S_ .f32 0x7F800000#32
  let main_v5 : FVec F S256x1 .f32 := broadcastInDim S256x1 ![] bcast_S_S256x1 main_cst_0
  let main_v6 : IVec S256x1 1 := cmpf .olt main_v4 main_v5
  let main_c_1 : IVec S_ 1 := constantI S_ 1 1#1
  let main_v7 : IVec S_ 1 := (fun x v => Host.reduce IntOp.andi x v reducesTo_S256x1_S_d0_1 h_S_) main_v6 main_c_1
  let main_v8 : IVec S_ 1 := andi main_v3 main_v7
  let main_v9 : FVec F S256x1 .f32 := Host.absf main_arg3
  let main_cst_2 : FVec F S_ .f32 := constant S_ .f32 0x7F800000#32
  let main_v10 : FVec F S256x1 .f32 := broadcastInDim S256x1 ![] bcast_S_S256x1 main_cst_2
  let main_v11 : IVec S256x1 1 := cmpf .olt main_v9 main_v10
  let main_c_3 : IVec S_ 1 := constantI S_ 1 1#1
  let main_v12 : IVec S_ 1 := (fun x v => Host.reduce IntOp.andi x v reducesTo_S256x1_S_d0_1 h_S_) main_v11 main_c_3
  let main_v13 : IVec S_ 1 := andi main_v8 main_v12
  let main_v14 : FVec F S256x1 .f32 := Host.absf main_arg4
  let main_cst_4 : FVec F S_ .f32 := constant S_ .f32 0x7F800000#32
  let main_v15 : FVec F S256x1 .f32 := broadcastInDim S256x1 ![] bcast_S_S256x1 main_cst_4
  let main_v16 : IVec S256x1 1 := cmpf .olt main_v14 main_v15
  fn_part1 (F := F) main_arg5 main_v13 main_v16
-- ==== Kernel.lean ====
abbrev S32x512x256 : Shape := ⟨3, ![32, 512, 256]⟩
abbrev S32x512x512 : Shape := ⟨3, ![32, 512, 512]⟩
abbrev S256x1 : Shape := ⟨2, ![256, 1]⟩
abbrev S1x512x256 : Shape := ⟨3, ![1, 512, 256]⟩
abbrev S1x512x512 : Shape := ⟨3, ![1, 512, 512]⟩
abbrev S512x256 : Shape := ⟨2, ![512, 256]⟩
abbrev S512x512 : Shape := ⟨2, ![512, 512]⟩
abbrev S256 : Shape := ⟨1, ![256]⟩
abbrev S1x256 : Shape := ⟨2, ![1, 256]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S32x512x256, .f32⟩
  | .hbm, ⟨1, _⟩ => ⟨S32x512x512, .i32⟩
  | .hbm, ⟨2, _⟩ => ⟨S256x1, .f32⟩
  | .hbm, ⟨3, _⟩ => ⟨S256x1, .f32⟩
  | .hbm, ⟨4, _⟩ => ⟨S256x1, .f32⟩
  | .hbm, ⟨5, _⟩ => ⟨S256x1, .f32⟩
  | .hbm, ⟨6, _⟩ => ⟨S32x512x256, .f32⟩
  | .local _ .vmem, ⟨0, _⟩ => ⟨S1x512x256, .f32⟩
  | .local _ .vmem, ⟨1, _⟩ => ⟨S1x512x256, .f32⟩
  | .local _ .vmem, ⟨2, _⟩ => ⟨S1x512x512, .i32⟩
  | .local _ .vmem, ⟨3, _⟩ => ⟨S1x512x512, .i32⟩
  | .local _ .vmem, ⟨4, _⟩ => ⟨S256x1, .f32⟩
  | .local _ .vmem, ⟨5, _⟩ => ⟨S256x1, .f32⟩
  | .local _ .vmem, ⟨6, _⟩ => ⟨S256x1, .f32⟩
  | .local _ .vmem, ⟨7, _⟩ => ⟨S256x1, .f32⟩
  | .local _ .vmem, ⟨8, _⟩ => ⟨S1x512x256, .f32⟩
  | .local _ .vmem, ⟨9, _⟩ => ⟨S1x512x256, .f32⟩
  | _, _ => ⟨S32x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  bitsLt_bf16_f32 : FTy.bits .bf16 < FTy.bits .f32
  inb_S256x1_S256x1_0_0 : ∀ a, (![0, 0] : Fin 2 → Nat) a + S256x1.size a ≤ S256x1.size a
  h_S256x1 : 0 < S256x1.numel
  shapeCasts_S256x1_S256 : S256x1.ShapeCasts S256
  shapeCasts_S256_S1x256 : S256.ShapeCasts S1x256
  broadcasts_S1x256_S512x256 : S1x256.Broadcasts S512x256
  reduces_S512x512_S512 : S512x512.Reduces [1] S512
  shapeCasts_S512_S512x1 : S512.ShapeCasts S512x1
  broadcasts_S512x1_S512x512 : S512x1.Broadcasts S512x512
  shapeCasts_S512x256_S1x512x256 : S512x256.ShapeCasts S1x512x256
  dot_S512x256_S512x256_S512x512_1_1_0_0_n_n_wf : DotDims.WF S512x256 S512x256 S512x512 [1] [1] [0] [0] [] []
  dot_S512x512_S512x256_S512x256_1_0_0_1_n_n_wf : DotDims.WF S512x512 S512x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x256.size a ≤ S32x512x256.size a
  hwx0_0 : ∀ i : grid0.Coords, EltTy.bits .f32 = 32 ∨ (Rect.block (s := S32x512x256) S1x512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S32x512x512.size a
  hwx0_1 : ∀ i : grid0.Coords, EltTy.bits .i32 = 32 ∨ (Rect.block (s := S32x512x512) S1x512x512.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S256x1.size a
  hwx0_2 : ∀ i : grid0.Coords, EltTy.bits .f32 = 32 ∨ (Rect.block (s := S256x1) S256x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S256x1.size a
  hwx0_3 : ∀ i : grid0.Coords, EltTy.bits .f32 = 32 ∨ (Rect.block (s := S256x1) S256x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S256x1.size a
  hwx0_4 : ∀ i : grid0.Coords, EltTy.bits .f32 = 32 ∨ (Rect.block (s := S256x1) S256x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x1.size a ≤ S256x1.size a
  hwx0_5 : ∀ i : grid0.Coords, EltTy.bits .f32 = 32 ∨ (Rect.block (s := S256x1) S256x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x256.size a ≤ S32x512x256.size a
  hwx0_6 : ∀ i : grid0.Coords, EltTy.bits .f32 = 32 ∨ (Rect.block (s := S32x512x256) S1x512x256.size (cc0_transform_6 i) (hinb0_6 i)).WholeWords (EltTy.packing .f32)

variable [Facts₀]

def dot_S512x256_S512x256_S512x512_1_1_0_0_n_n : DotDims S512x256 S512x256 S512x512 where
  lhsContracting := [1]
  rhsContracting := [1]
  lhsNonContracting := [0]
  rhsNonContracting := [0]
  lhsBatch := []
  rhsBatch := []
  wf := dot_S512x256_S512x256_S512x512_1_1_0_0_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf

abbrev win0_0 : Pipeline.Window sig grid0 :=
  Pipeline.Window.ofSpec (Memref.whole main_arg0) S1x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S1x512x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S32x512x256 : Shape := ⟨3, ![32, 512, 256]⟩
abbrev S32x512x512 : Shape := ⟨3, ![32, 512, 512]⟩
abbrev S256x1 : Shape := ⟨2, ![256, 1]⟩
abbrev S256 : Shape := ⟨1, ![256]⟩
abbrev S1x1x256 : Shape := ⟨3, ![1, 1, 256]⟩
abbrev S_ : Shape := ⟨0, ![]⟩
abbrev S32x512 : Shape := ⟨2, ![32, 512]⟩
abbrev S32x512x1 : Shape := ⟨3, ![32, 512, 1]⟩

abbrev nBuf : Space → Nat
  | .hbm => 92
  | .vmem => 0
  | .smem => 0
  | _ => 0

abbrev bufTy : (tb : Table) → Fin (tcTables nBuf tb) → BufTy
  | .hbm, ⟨0, _⟩ => ⟨S32x512x256, .f32⟩
  | .hbm, ⟨1, _⟩ => ⟨S32x512x512, .i32⟩
  | .hbm, ⟨2, _⟩ => ⟨S256x1, .f32⟩
  | .hbm, ⟨3, _⟩ => ⟨S256x1, .f32⟩
  | .hbm, ⟨4, _⟩ => ⟨S256x1, .f32⟩
  | .hbm, ⟨5, _⟩ => ⟨S256x1, .f32⟩
  | .hbm, ⟨6, _⟩ => ⟨S256, .f32⟩
  | .hbm, ⟨7, _⟩ => ⟨S1x1x256, .f32⟩
  | .hbm, ⟨8, _⟩ => ⟨S32x512x256, .f32⟩
  | .hbm, ⟨9, _⟩ => ⟨S32x512x256, .f32⟩
  | .hbm, ⟨10, _⟩ => ⟨S32x512x512, .f32⟩
  | .hbm, ⟨11, _⟩ => ⟨S_, .f32⟩
  | .hbm, ⟨12, _⟩ => ⟨S_, .f32⟩
  | .hbm, ⟨13, _⟩ => ⟨S32x512x512, .f32⟩
  | .hbm, ⟨14, _⟩ => ⟨S32x512x512, .i1⟩
  | .hbm, ⟨15, _⟩ => ⟨S_, .f32⟩
  | .hbm, ⟨16, _⟩ => ⟨S32x512x512, .f32⟩
  | .hbm, ⟨17, _⟩ => ⟨S32x512x512, .f32⟩
  | .hbm, ⟨18, _⟩ => ⟨S32x512x512, .f32⟩
  | .hbm, ⟨19, _⟩ => ⟨S256, .f32⟩
  | .hbm, ⟨20, _⟩ => ⟨S1x1x256, .f32⟩
  | .hbm, ⟨21, _⟩ => ⟨S32x512x256, .f32⟩
  | .hbm, ⟨22, _⟩ => ⟨S32x512x256, .f32⟩
  | .hbm, ⟨23, _⟩ => ⟨S32x512x512, .f32⟩
  | .hbm, ⟨24, _⟩ => ⟨S_, .f32⟩
  | .hbm, ⟨25, _⟩ => ⟨S_, .f32⟩
  | .hbm, ⟨26, _⟩ => ⟨S32x512x512, .f32⟩
  | .hbm, ⟨27, _⟩ => ⟨S32x512x512, .i1⟩
  | .hbm, ⟨28, _⟩ => ⟨S_, .f32⟩
  | .hbm, ⟨29, _⟩ => ⟨S32x512x512, .f32⟩
  | .hbm, ⟨30, _⟩ => ⟨S32x512x512, .f32⟩
  | .hbm, ⟨31, _⟩ => ⟨S32x512x512, .f32⟩
  | .hbm, ⟨32, _⟩ => ⟨S256, .f32⟩
  | .hbm, ⟨33, _⟩ => ⟨S1x1x256, .f32⟩
  | .hbm, ⟨34, _⟩ => ⟨S32x512x256, .f32⟩
  | .hbm, ⟨35, _⟩ => ⟨S32x512x256, .f32⟩
  | .hbm, ⟨36, _⟩ => ⟨S32x512x512, .f32⟩
  | .hbm, ⟨37, _⟩ => ⟨S_, .f32⟩
  | .hbm, ⟨38, _⟩ => ⟨S_, .f32⟩
  | .hbm, ⟨39, _⟩ => ⟨S32x512x512, .f32⟩
  | .hbm, ⟨40, _⟩ => ⟨S32x512x512, .i1⟩
  | .hbm, ⟨41, _⟩ => ⟨S_, .f32⟩
  | .hbm, ⟨42, _⟩ => ⟨S32x512x512, .f32⟩
  | .hbm, ⟨43, _⟩ => ⟨S32x512x512, .f32⟩
  | .hbm, ⟨44, _⟩ => ⟨S32x512x512, .f32⟩
  | .hbm, ⟨45, _⟩ => ⟨S256, .f32⟩
  | .hbm, ⟨46, _⟩ => ⟨S1x1x256, .f32⟩
  | .hbm, ⟨47, _⟩ => ⟨S32x512x256, .f32⟩
  | .hbm, ⟨48, _⟩ => ⟨S32x512x256, .f32⟩
  | .hbm, ⟨49, _⟩ => ⟨S32x512x512, .f32⟩
  | .hbm, ⟨50, _⟩ => ⟨S_, .f32⟩
  | .hbm, ⟨51, _⟩ => ⟨S_, .f32⟩
  | .hbm, ⟨52, _⟩ => ⟨S32x512x512, .f32⟩
  | .hbm, ⟨53, _⟩ => ⟨S32x512x512, .i1⟩
  | .hbm, ⟨54, _⟩ => ⟨S_, .f32⟩
  | .hbm, ⟨55, _⟩ => ⟨S32x512x512, .f32⟩
  | .hbm, ⟨56, _⟩ => ⟨S32x512x512, .f32⟩
  | .hbm, ⟨57, _⟩ => ⟨S32x512x512, .f32⟩
  | .hbm, ⟨58, _⟩ => ⟨S_, .i32⟩
  | .hbm, ⟨59, _⟩ => ⟨S32x512x512, .i32⟩
  | .hbm, ⟨60, _⟩ => ⟨S32x512x512, .i1⟩
  | .hbm, ⟨61, _⟩ => ⟨S_, .f32⟩
  | .hbm, ⟨62, _⟩ => ⟨S_, .f32⟩
  | .hbm, ⟨63, _⟩ => ⟨S32x512x512, .f32⟩
  | .hbm, ⟨64, _⟩ => ⟨S32x512x512, .f32⟩
  | .hbm, ⟨65, _⟩ => ⟨S_, .i32⟩
  | .hbm, ⟨66, _⟩ => ⟨S32x512x512, .i32⟩
  | .hbm, ⟨67, _⟩ => ⟨S32x512x512, .i1⟩
  | .hbm, ⟨68, _⟩ => ⟨S32x512x512, .f32⟩
  | .hbm, ⟨69, _⟩ => ⟨S_, .i32⟩
  | .hbm, ⟨70, _⟩ => ⟨S32x512x512, .i32⟩
  | .hbm, ⟨71, _⟩ => ⟨S32x512x512, .i1⟩
  | .hbm, ⟨72, _⟩ => ⟨S32x512x512, .f32⟩
  | .hbm, ⟨73, _⟩ => ⟨S_, .i32⟩
  | .hbm, ⟨74, _⟩ => ⟨S32x512x512, .i32⟩
  | .hbm, ⟨75, _⟩ => ⟨S32x512x512, .i1⟩
  | .hbm, ⟨76, _⟩ => ⟨S32x512x512, .f32⟩
  | .hbm, ⟨77, _⟩ => ⟨S_, .f32⟩
  | .hbm, ⟨78, _⟩ => ⟨S32x512, .f32⟩
  | .hbm, ⟨79, _⟩ => ⟨S_, .f32⟩
  | .hbm, ⟨80, _⟩ => ⟨S32x512, .f32⟩
  | .hbm, ⟨81, _⟩ => ⟨S32x512, .f32⟩
  | .hbm, ⟨82, _⟩ => ⟨S32x512x1, .f32⟩
  | .hbm, ⟨83, _⟩ => ⟨S32x512x512, .f32⟩
  | .hbm, ⟨84, _⟩ => ⟨S32x512x512, .f32⟩
  | .hbm, ⟨85, _⟩ => ⟨S32x512x512, .f32⟩
  | .hbm, ⟨86, _⟩ => ⟨S_, .f32⟩
  | .hbm, ⟨87, _⟩ => ⟨S32x512, .f32⟩
  | .hbm, ⟨88, _⟩ => ⟨S32x512x1, .f32⟩
  | .hbm, ⟨89, _⟩ => ⟨S32x512x512, .f32⟩
  | .hbm, ⟨90, _⟩ => ⟨S32x512x512, .f32⟩
  | .hbm, ⟨91, _⟩ => ⟨S32x512x256, .f32⟩
  | _, _ => ⟨S32x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_call0_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_0 : Ref sig .tc := ⟨.hbm, 24, rfl⟩
abbrev main_call1_cst : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_1 : Ref sig .tc := ⟨.hbm, 37, rfl⟩
abbrev main_call2_cst : Ref sig .tc := ⟨.hbm, 38, rfl⟩
abbrev main_call2_v0 : Ref sig .tc := ⟨.hbm, 39, rfl⟩
abbrev main_call2_v1 : Ref sig .tc := ⟨.hbm, 40, rfl⟩
abbrev main_call2_v2 : Ref sig .tc := ⟨.hbm, 41, rfl⟩
abbrev main_call2_v3 : Ref sig .tc := ⟨.hbm, 42, rfl⟩
abbrev main_call2_v4 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_cst_2 : Ref sig .tc := ⟨.hbm, 50, rfl⟩
abbrev main_call3_cst : Ref sig .tc := ⟨.hbm, 51, rfl⟩
abbrev main_call3_v0 : Ref sig .tc := ⟨.hbm, 52, rfl⟩
abbrev main_call3_v1 : Ref sig .tc := ⟨.hbm, 53, rfl⟩
abbrev main_call3_v2 : Ref sig .tc := ⟨.hbm, 54, rfl⟩
abbrev main_call3_v3 : Ref sig .tc := ⟨.hbm, 55, rfl⟩
abbrev main_call3_v4 : Ref sig .tc := ⟨.hbm, 56, rfl⟩
abbrev main_v23 : Ref sig .tc := ⟨.hbm, 57, rfl⟩
abbrev main_c : Ref sig .tc := ⟨.hbm, 58, rfl⟩
abbrev main_v24 : Ref sig .tc := ⟨.hbm, 59, rfl⟩
abbrev main_v25 : Ref sig .tc := ⟨.hbm, 60, rfl⟩
abbrev main_cst_3 : Ref sig .tc := ⟨.hbm, 61, rfl⟩
abbrev main_call4_v0 : Ref sig .tc := ⟨.hbm, 62, rfl⟩
abbrev main_call4_v1 : Ref sig .tc := ⟨.hbm, 63, rfl⟩
abbrev main_v26 : Ref sig .tc := ⟨.hbm, 64, rfl⟩
abbrev main_c_4 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_c_5 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_c_6 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_cst_7 : Ref sig .tc := ⟨.hbm, 77, rfl⟩
abbrev main_v36 : Ref sig .tc := ⟨.hbm, 78, rfl⟩
abbrev main_cst_8 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_cst_9 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩

abbrev nD : Nat := 1
abbrev τ : Topo := Topo.v7x

variable {F : FTy → Type} [FloatOps F]

class Facts₀ : Prop where
  shapeCasts_S256x1_S256 : S256x1.ShapeCasts S256
  bcast_S256_S1x1x256_2 : S256.BroadcastsInDim S1x1x256 (![2] : Fin 1 → Fin S1x1x256.rank)
  bcast_S1x1x256_S32x512x256_0_1_2 : S1x1x256.BroadcastsInDim S32x512x256 (![0, 1, 2] : Fin 3 → Fin S32x512x256.rank)
  bcast_S_S32x512x512 : S_.BroadcastsInDim S32x512x512 (![] : Fin 0 → Fin S32x512x512.rank)
  reducesTo_S32x512x512_S32x512_d2 : S32x512x512.ReducesTo [2] S32x512
  h_S_ : 0 < S_.numel
  bcast_S_S32x512 : S_.BroadcastsInDim S32x512 (![] : Fin 0 → Fin S32x512.rank)
  bcast_S32x512_S32x512x1_0_1 : S32x512.BroadcastsInDim S32x512x1 (![0, 1] : Fin 2 → Fin S32x512x1.rank)
  bcast_S32x512x1_S32x512x512_0_1_2 : S32x512x1.BroadcastsInDim S32x512x512 (![0, 1, 2] : Fin 3 → Fin S32x512x512.rank)
  dot_S32x512x256_S32x512x256_S32x512x512_2_2_1_1_0_0_wf : DotDims.WF S32x512x256 S32x512x256 S32x512x512 [2] [2] [1] [1] [0] [0]
  dot_S32x512x512_S32x512x256_S32x512x256_2_1_1_2_0_0_wf : DotDims.WF S32x512x512 S32x512x256 S32x512x256 [2] [1] [1] [2] [0] [0]

variable [Facts₀]

def dot_S32x512x256_S32x512x256_S32x512x512_2_2_1_1_0_0 : DotDims S32x512x256 S32x512x256 S32x512x512 where
  lhsContracting := [2]
  rhsContracting := [2]
  lhsNonContracting := [1]
  rhsNonContracting := [1]
  lhsBatch := [0]
  rhsBatch := [0]
  wf := dot_S32x512x256_S32x512x256_S32x512x512_2_2_1_1_0_0_wf
def dot_S32x512x512_S32x512x256_S32x512x256_2_1_1_2_0_0 : DotDims S32x512x512 S32x512x256 S32x512x256 where
  lhsContracting := [2]
  rhsContracting := [1]
  lhsNonContracting := [1]
  rhsNonContracting := [2]
  lhsBatch := [0]
  rhsBatch := [0]
  wf := dot_S32x512x512_S32x512x256_S32x512x256_2_1_1_2_0_0_wf

class Facts : Prop extends Facts₀ where

variable [Facts]
-- ==== Proof.Spec.lean ====
/-
  Attention over typed edges, as one function of the arguments.

  A batch element holds `512` nodes with `256` features each (`H`), an edge-type table `A` (`512 × 512` integers) and
  four feature weightings `a₀ … a₃`. For edge type `k + 1` the raw score of the pair `(i, j)` is the weighted inner
  product `Σ_d (H i d · a_k d) · H j d`, passed through the leaky rectifier `x ↦ x` for `x` above zero, `slope · x`
  otherwise. The score of `(i, j)` is the rectified raw score of the pair's edge type, and a large negative fill where the
  type is none of `1 … 4`. Each row of scores is turned into weights by the softmax — subtract the row's maximum,
  exponentiate, divide by the row's sum — and the result row `i` is the weighted sum `Σ_j w i j · H j` of the nodes'
  features. Everything is over the extended reals; the four float words are kept as words, the same on both sides.
-/
import Idealize.ShloMosaic.PureOps.Ideal
import Idealize.ShloMosaic.Lib.ValueIdx

noncomputable section

namespace Cert.EdgeAttention

open Idealize.ShloMosaic Idealize.ShloMosaic.ValueIdx

/-- The rectifier's slope on the negative side (the float word of 0.2). -/
abbrev slopeW : EReal := Ideal.ofBits .f32 0x3E4CCCCD#32
/-- The score of a pair whose edge type is none of 1 … 4 (the float word of -9e15). -/
abbrev fillW : EReal := Ideal.ofBits .f32 0xD9FFCB9E#32
/-- The word of minus infinity, from which a row's maximum is folded. -/
abbrev botW : EReal := Ideal.ofBits .f32 0xFF800000#32
/-- The word of zero. -/
abbrev zeroW : EReal := Ideal.ofBits .f32 0x00000000#32

/-- The raw score of the pair `(i, j)` under the weighting `a`: `Σ_d (H i d · a d) · H j d`. -/
def edge (H : Fin 512 → Fin 256 → EReal) (a : Fin 256 → EReal) (i j : Fin 512) : EReal :=
  ∑ d : Fin 256, H i d * a d * H j d

/-- The leaky rectifier, with the comparison against zero spelt by the predicate `p` (`x > 0` or `x ≥ 0`). -/
def leaky (p : CmpFPredicate) (x : EReal) : EReal :=
  Scalar.select (Ideal.cmp p x zeroW) x (slopeW * x)

/-- The score of the pair `(i, j)`: the rectified raw score of its edge type, the fill where it has none. -/
def score (p : CmpFPredicate) (H : Fin 512 → Fin 256 → EReal) (A : Fin 512 → Fin 512 → BitVec 32)
    (a0 a1 a2 a3 : Fin 256 → EReal) (i j : Fin 512) : EReal :=
  Scalar.select (IntOp.cmpi .eq (A i j) 4#32) (leaky p (edge H a3 i j))
    (Scalar.select (IntOp.cmpi .eq (A i j) 3#32) (leaky p (edge H a2 i j))
      (Scalar.select (IntOp.cmpi .eq (A i j) 2#32) (leaky p (edge H a1 i j))
        (Scalar.select (IntOp.cmpi .eq (A i j) 1#32) (leaky p (edge H a0 i j)) fillW)))

/-- The greatest score of row `i`, folded from minus infinity. -/
def rowMax (S : Fin 512 → Fin 512 → EReal) (i : Fin 512) : EReal :=
  (Finset.univ : Finset (Fin 512)).fold max botW (fun j => S i j)

/-- The exponential of a score less its row's maximum. -/
def expo (S : Fin 512 → Fin 512 → EReal) (i j : Fin 512) : EReal := Ideal.exp (S i j - rowMax S i)

/-- The softmax weight of `(i, j)`: its exponential over the sum of the row's. -/
def weight (S : Fin 512 → Fin 512 → EReal) (i j : Fin 512) : EReal := Ideal.div (expo S i j) (∑ k : Fin 512, expo S i k)

/-- Row `i`, feature `d` of the result: `Σ_j w i j · H j d`. -/
def attend (S : Fin 512 → Fin 512 → EReal) (H : Fin 512 → Fin 256 → EReal) (i : Fin 512) (d : Fin 256) : EReal :=
  ∑ j : Fin 512, weight S i j * H j d

/-- At zero the rectifier's two branches agree (`slope · 0 = 0`), so comparing by `>` or by `≥` gives one function. -/
theorem leaky_ogt_eq_oge (x : EReal) : leaky .ogt x = leaky .oge x := by
  have hz : zeroW = 0 := by simp [zeroW, Ideal.ofBits, Ideal.ieee]
  unfold leaky Scalar.select Ideal.cmp
  rw [hz]
  by_cases h : (0 : EReal) < x
  · simp [h, h.le]
  · by_cases h0 : (0 : EReal) ≤ x
    · have hx : x = 0 := le_antisymm (not_lt.mp h) h0
      simp [hx]
    · simp [h, h0]

theorem score_ogt_eq_oge (H : Fin 512 → Fin 256 → EReal) (A : Fin 512 → Fin 512 → BitVec 32)
    (a0 a1 a2 a3 : Fin 256 → EReal) : score .ogt H A a0 a1 a2 a3 = score .oge H A a0 a1 a2 a3 := by
  funext i j
  simp only [score, leaky_ogt_eq_oge]

/-- The whole result: batch element `b`'s attention from its own nodes, edge types and the four weightings (stored as
    columns `[256, 1]`). -/
def G (h : (⟨3, ![32, 512, 256]⟩ : Shape).Idx → EReal) (adj : (⟨3, ![32, 512, 512]⟩ : Shape).Idx → BitVec 32)
    (a0 a1 a2 a3 : (⟨2, ![256, 1]⟩ : Shape).Idx → EReal) : (⟨3, ![32, 512, 256]⟩ : Shape).Idx → EReal :=
  fun ι =>
    attend
      (score .oge (fun i d => h (ix3 (ι 0) i d)) (fun i j => adj (ix3 (ι 0) i j)) (fun d => a0 (ix2 d 0)) (fun d => a1 (ix2 d 0))
        (fun d => a2 (ix2 d 0)) (fun d => a3 (ix2 d 0)))
      (fun j d => h (ix3 (ι 0) j d)) (ι 1) (ι 2)

end Cert.EdgeAttention

end
-- ==== Proof.LibRowForms.lean ====
/-
  Row reductions of a matrix, and a column laid along the rows, read at an index.

  Reducing a matrix `[a, b]` along its second axis gives a vector `[a]` whose entry `i` depends on row `i` alone: for a
  sum it is the sum of the row's `b` entries, for a maximum the fold of `max` over them from the initial value. And a
  column `[b, 1]`, transposed to the row `[1, b]` and copied down to `[a, b]`, has at `(i, j)` entry `j` of the column,
  whatever `i`. Every index is written by its coordinates.
-/
import Idealize.ShloMosaic.PureOps.Ideal.Laws
import Idealize.ShloMosaic.Lib.ValueIdx
import Idealize.ShloMosaic.Lib.ValueLayout

namespace Cert.RowForms

open Idealize.ShloMosaic Idealize.ShloMosaic.ValueIdx

/-- The index of the matrix that reduces to `i` along the second axis and has `k` there is `(i, k)`. -/
theorem lift_row {a b : ℕ} (h : (⟨2, ![a, b]⟩ : Shape).Reduces [1] ⟨1, ![a]⟩) (i : Fin a)
    (k : Fin ((⟨2, ![a, b]⟩ : Shape).size 1)) : h.lift (ix1 i) k = ix2 i (⟨k.val, k.isLt⟩ : Fin b) := by
  funext d; apply Fin.ext
  match d with
  | ⟨0, _⟩ => rfl
  | ⟨1, _⟩ => rfl

/-- A float sum along the rows, from the zero word, at `i`: the sum of row `i`. -/
theorem multiReduction_add_rows {a b : ℕ} (src : FVec Ideal ⟨2, ![a, b]⟩ .f32)
    (h : (⟨2, ![a, b]⟩ : Shape).Reduces [1] ⟨1, ![a]⟩) (i : Fin a) :
    multiReduction .add [1] ⟨1, ![a]⟩ src 0x00000000#32 h (.inl rfl) rfl (ix1 i) = ∑ k : Fin b, src (ix2 i k) :=
  (Ideal.multiReduction_add_single src 0x00000000#32 h (.inl rfl) rfl (ix1 i)).trans
    (Finset.sum_congr rfl fun k _ => congrArg src (lift_row h i k))

/-- A float maximum along the rows, from the word of minus infinity, at `i`: the fold of `max` over row `i`. -/
theorem multiReduction_max_rows {a b : ℕ} (src : FVec Ideal ⟨2, ![a, b]⟩ .f32)
    (h : (⟨2, ![a, b]⟩ : Shape).Reduces [1] ⟨1, ![a]⟩) (i : Fin a) :
    multiReduction .maximumf [1] ⟨1, ![a]⟩ src 0xFF800000#32 h (.inl rfl) rfl (ix1 i)
      = (Finset.univ : Finset (Fin b)).fold max (Ideal.ofBits .f32 0xFF800000#32) (fun k => src (ix2 i k)) :=
  (Ideal.multiReduction_maximumf_single src 0xFF800000#32 h (.inl rfl) rfl (ix1 i)).trans
    (congrArg (fun f => Finset.fold max (Ideal.ofBits .f32 0xFF800000#32) f (Finset.univ : Finset (Fin b)))
      (funext fun k => congrArg src (lift_row h i k)))

/-- A column `[b, 1]` transposed to a row `[1, b]` and copied down to `[a, b]` reads, at `(i, j)`, the column at `(j, 0)`. -/
theorem rowOfColumn_apply {α : Type} {a b : ℕ} (col : (⟨2, ![b, 1]⟩ : Shape).Idx → α)
    (ht : (⟨2, ![b, 1]⟩ : Shape).Transposes [1, 0] ⟨2, ![1, b]⟩)
    (hb : (⟨2, ![1, b]⟩ : Shape).Broadcasts ⟨2, ![a, b]⟩) (i : Fin a) (j : Fin b) :
    broadcastTo ⟨2, ![a, b]⟩ (transpose ⟨2, ![1, b]⟩ [1, 0] col ht) hb (ix2 i j) = col (ix2 j (0 : Fin 1)) :=
  (broadcastTo_1b_ab_apply _ hb i j).trans (transpose_ix2_apply col ht (0 : Fin 1) j)

end Cert.RowForms
-- ==== Proof.LibColumnForms.lean ====
/-
  A column vector read at an index.

  Summing a matrix along its rows with the summed axis kept gives a column: the sums, an `[a]` vector, are laid out as
  `[a, 1]`, and the column is then copied along a new second axis to `[a, b]`. Entry `(i, j)` of the result is
  entry `i` of the vector, whatever `j`. The two lemmas below say this one layout step at a time, every index
  written by its coordinates.
-/
import Idealize.ShloMosaic.Lib.Pipeline.Value
import Idealize.ShloMosaic.Lib.ValueIdx

namespace Cert.ColumnForms

open Idealize.ShloMosaic Idealize.ShloMosaic.ValueIdx

variable {α : Type}

/-- A vector `[a]` laid out as a column `[a, 1]` reads, at `(i, u)`, the vector at `i`: the row-major position
    `i · 1 + u` of `(i, u)` is `i`, the unit coordinate `u` being `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` copied along its unit axis to `[a, b]` reads, at `(i, j)`, the column at `(i, 0)`: the first
    coordinate is kept (also when `a = 1`, where it is `0` anyway), the second is the unit axis's only one. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.ColumnForms
-- ==== Proof.LibContractForms.lean ====
/-
  Two layout and contraction forms read at an index.

  A column `[a, 1]` read as the vector `[a]`: entry `i` of the vector is the column at `(i, 0)`, both sitting at row-major
  position `i`. And a batched product of two stacks of matrices that contracts the LAST axis of both — `[G, m, k]` by
  `[G, n, k]`, member by member the product of one matrix with the transpose of the other: entry `(g, a, b)` is the sum over
  `c` of `A (g, a, c) · B (g, b, c)`, over the extended reals. Every index is written by its coordinates.
-/
import Idealize.ShloMosaic.PureOps.Ideal.Laws
import Idealize.ShloMosaic.Lib.ValueIdx
import Idealize.ShloMosaic.Lib.Pipeline.Value

namespace Cert.ContractForms

open Idealize.ShloMosaic Idealize.ShloMosaic.ValueIdx

/-- A column `[a, 1]` read as a vector `[a]`: entry `i` is the column at `(i, 0)`. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A batched product contracting the LAST axis of both operands — `[G, m, k]` by `[G, n, k]`, batch axes 0 and 0 — read
    at `(g, a, b)`: the sum over the contracted coordinate `c` of `A (g, a, c) · B (g, b, c)`. The left operand's index at
    output `(g, a, b)` and contraction coordinate `c` is `(g, a, c)`, the right operand's is `(g, b, c)`. -/
theorem dotGeneral_stackT_apply {G m n k : Nat} {φ₁ φ₂ : FTy}
    (w : DotDims.WF ⟨3, ![G, m, k]⟩ ⟨3, ![G, n, k]⟩ ⟨3, ![G, m, n]⟩ [2] [2] [1] [1] [0] [0])
    (prec : Option ContractPrecision) (A : FVec Ideal ⟨3, ![G, m, k]⟩ φ₁) (B : FVec Ideal ⟨3, ![G, n, k]⟩ φ₂)
    (g : Fin G) (a : Fin m) (b : Fin n) :
    Host.dotGeneral (⟨[2], [2], [1], [1], [0], [0], w⟩ : DotDims _ _ _) prec A B (ix3 g a b)
      = ∑ c : Fin k, A (ix3 g a c) * B (ix3 g b c) := by
  show FloatOps.dotGeneral _ prec _ A B (ix3 g a b) = _
  rw [Ideal.dotGeneral_apply,
    ← Equiv.sum_comp (contrEquiv1 (⟨[2], [2], [1], [1], [0], [0], w⟩ : DotDims _ _ _) k rfl rfl).symm]
  refine Finset.sum_congr rfl fun c _ => ?_
  have c3 := contrEquiv1_symm_val
    (⟨[2], [2], [1], [1], [0], [0], w⟩ : DotDims ⟨3, ![G, m, k]⟩ ⟨3, ![G, n, k]⟩ ⟨3, ![G, m, n]⟩) k rfl rfl c
  have l3 : (⟨[2], [2], [1], [1], [0], [0], w⟩ : DotDims ⟨3, ![G, m, k]⟩ ⟨3, ![G, n, k]⟩ ⟨3, ![G, m, n]⟩).lhsIdx (ix3 g a b)
      ((contrEquiv1 _ k rfl rfl).symm c) = ix3 g a c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [2], [1], [1], [0], [0], w⟩ : DotDims ⟨3, ![G, m, k]⟩ ⟨3, ![G, n, k]⟩ ⟨3, ![G, m, n]⟩).rhsIdx (ix3 g a b)
      ((contrEquiv1 _ k rfl rfl).symm c) = ix3 g b c := by
    funext ax; apply Fin.ext
    match ax with
    | ⟨0, _⟩ => simp [DotDims.rhsIdx]; rfl
    | ⟨1, _⟩ => simp [DotDims.rhsIdx]; rfl
    | ⟨2, _⟩ => simp [DotDims.rhsIdx]; exact c3
  rw [l3, r3]

end Cert.ContractForms
-- ==== Proof.KernelOps.lean ====
/-
  One batch element's attention as the kernel body computes it, read entry by entry.

  The body holds one batch element: the nodes' features `[512, 256]`, the edge types `[512, 512]` and the four weighting
  columns. For each weighting it lays the column along the rows, multiplies the features by it and contracts the
  product with the features over the feature axis — the raw scores `[512, 512]` —, rectifies them, selects by edge type,
  and turns each row of scores into weights (row maximum, exponentials, row sum, quotient); the weights contracted with
  the features over the node axis are the block's result. Each step below is read at an index written by its
  coordinates, and the whole is the specification's `attend` of the block's rows.
-/
import proofs.«117791_j9509057593867_1_alg».proof.Proof.Gen.KernelIdeal
import proofs.«117791_j9509057593867_1_alg».proof.Proof.Spec
import proofs.«117791_j9509057593867_1_alg».proof.Proof.LibRowForms
import proofs.«117791_j9509057593867_1_alg».proof.Proof.LibColumnForms
import proofs.«117791_j9509057593867_1_alg».proof.Proof.LibContractForms
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.PointValue

open Cert.KernelIdeal Cert.KernelIdeal.Gen Idealize.ShloMosaic Idealize.ShloMosaic.ValueIdx Cert.EdgeAttention

/-! ## The body's steps as functions of whole vectors -/

/-- The block `[1, 512, 256]` with its unit axis dropped. -/
def nodes (x0 : Vec Ideal S1x512x256 .f32) : FVec Ideal S512x256 .f32 :=
  shapeCast S512x256 x0 shapeCasts_S1x512x256_S512x256

/-- The edge-type block `[1, 512, 512]` with its unit axis dropped. -/
def types (x1 : Vec Ideal S1x512x512 .i32) : IVec S512x512 32 :=
  shapeCast S512x512 x1 shapeCasts_S1x512x512_S512x512

/-- A weighting column `[256, 1]` laid along every row: `[512, 256]`. -/
def overRows (a : Vec Ideal S256x1 .f32) : FVec Ideal S512x256 .f32 :=
  broadcastTo S512x256 (shapeCast S1x256 (shapeCast S256 a shapeCasts_S256x1_S256) shapeCasts_S256_S1x256)
    broadcasts_S1x256_S512x256

/-- The raw scores under one weighting: the weighted features contracted with the features over the feature axis. -/
def raw (v1 : FVec Ideal S512x256 .f32) (v4 : FVec Ideal S512x256 .bf16) (a : Vec Ideal S256x1 .f32) :
    FVec Ideal S512x512 .f32 :=
  matmul dot_S512x256_S512x256_S512x512_1_1_0_0_n_n none (truncf .bf16 (mulf v1 (overRows a)) bitsLt_bf16_f32) v4
    (constant S512x512 .f32 0x00000000#32)

/-- The leaky rectifier, comparing by `>`. -/
def rect (e : FVec Ideal S512x512 .f32) : FVec Ideal S512x512 .f32 :=
  select (cmpf .ogt e (broadcast S512x512 (Scalar.ofBits .f32 0x00000000#32))) e
    (mulf (broadcast S512x512 (Scalar.ofBits .f32 0x3E4CCCCD#32)) e)

/-- The scores: the rectified raw score of the pair's edge type, the fill where it has none. -/
def scoresK (v1 : FVec Ideal S512x256 .f32) (v3 : IVec S512x512 32) (v4 : FVec Ideal S512x256 .bf16)
    (a0 a1 a2 a3 : Vec Ideal S256x1 .f32) : FVec Ideal S512x512 .f32 :=
  select (cmpi .eq v3 (broadcast S512x512 4#32)) (rect (raw v1 v4 a3))
    (select (cmpi .eq v3 (broadcast S512x512 3#32)) (rect (raw v1 v4 a2))
      (select (cmpi .eq v3 (broadcast S512x512 2#32)) (rect (raw v1 v4 a1))
        (select (cmpi .eq v3 (broadcast S512x512 1#32)) (rect (raw v1 v4 a0))
          (broadcast S512x512 (Scalar.ofBits .f32 0xD9FFCB9E#32)))))

/-- A per-row value `[512]` copied along its row: `[512, 512]`. -/
def alongRowK (v : FVec Ideal S512 .f32) : FVec Ideal S512x512 .f32 :=
  broadcastTo S512x512 (shapeCast S512x1 v shapeCasts_S512_S512x1) broadcasts_S512x1_S512x512

/-- The exponentials of the scores less their rows' maxima. -/
def exposK (s : FVec Ideal S512x512 .f32) : FVec Ideal S512x512 .f32 :=
  exp (subf s (alongRowK (multiReduction .maximumf [1] S512 s 0xFF800000#32 reduces_S512x512_S512 (.inl rfl) rfl)))

/-- The softmax weights: each exponential over its row's sum. -/
def weightsK (s : FVec Ideal S512x512 .f32) : FVec Ideal S512x512 .f32 :=
  divf (exposK s)
    (alongRowK (multiReduction .add [1] S512 (exposK s) 0x00000000#32 reduces_S512x512_S512 (.inl rfl) rfl))

/-- What the body stores: the weights contracted with the features over the node axis, as a block `[1, 512, 256]`. -/
def pointOut (x0 : Vec Ideal S1x512x256 .f32) (x1 : Vec Ideal S1x512x512 .i32) (x2 x3 x4 x5 : Vec Ideal S256x1 .f32) :
    FVec Ideal S1x512x256 .f32 :=
  shapeCast S1x512x256
    (matmul dot_S512x512_S512x256_S512x256_1_0_0_1_n_n none
      (truncf .bf16 (weightsK (scoresK (nodes x0) (types x1) (truncf .bf16 (nodes x0) bitsLt_bf16_f32) x2 x3 x4 x5))
        bitsLt_bf16_f32)
      (truncf .bf16 (nodes x0) bitsLt_bf16_f32) (constant S512x256 .f32 0x00000000#32))
    shapeCasts_S512x256_S1x512x256

/-! ## Each step read at an index -/

theorem nodes_apply (x0 : Vec Ideal S1x512x256 .f32) (i : Fin 512) (d : Fin 256) :
    nodes x0 (ix2 i d) = x0 (ix3 (0 : Fin 1) i d) :=
  shapeCast_1ab_ab_apply x0 shapeCasts_S1x512x256_S512x256 i d

theorem types_apply (x1 : Vec Ideal S1x512x512 .i32) (i j : Fin 512) :
    types x1 (ix2 i j) = x1 (ix3 (0 : Fin 1) i j) :=
  shapeCast_1ab_ab_apply x1 shapeCasts_S1x512x512_S512x512 i j

theorem overRows_apply (a : Vec Ideal S256x1 .f32) (i : Fin 512) (d : Fin 256) :
    overRows a (ix2 i d) = a (ix2 d (0 : Fin 1)) :=
  (broadcastTo_1b_ab_apply _ broadcasts_S1x256_S512x256 i d).trans
    ((shapeCast_a_1a_apply _ shapeCasts_S256_S1x256 (0 : Fin 1) d).trans
      (Cert.ContractForms.shapeCast_a1_a_apply a shapeCasts_S256x1_S256 d))

/-- Two `[512, 256]` matrices contracted over their second axes, into zero: entry `(i, j)` is `Σ_d A i d · B j d`. -/
theorem matmul_rows_apply {φ₁ φ₂ : FTy} (A : FVec Ideal S512x256 φ₁) (B : FVec Ideal S512x256 φ₂) (i j : Fin 512) :
    matmul dot_S512x256_S512x256_S512x512_1_1_0_0_n_n none A B (constant S512x512 .f32 0x00000000#32) (ix2 i j)
      = ∑ d : Fin 256, A (ix2 i d) * B (ix2 j d) := by
  refine (Ideal.matmul_constant_zero_apply dot_S512x256_S512x256_S512x512_1_1_0_0_n_n none A B (ix2 i j)).trans ?_
  rw [← Equiv.sum_comp (contrEquiv1 dot_S512x256_S512x256_S512x512_1_1_0_0_n_n 256 rfl rfl).symm]
  refine Finset.sum_congr rfl fun d _ => ?_
  have c := contrEquiv1_symm_val dot_S512x256_S512x256_S512x512_1_1_0_0_n_n 256 rfl rfl d
  have l : dot_S512x256_S512x256_S512x512_1_1_0_0_n_n.lhsIdx (ix2 i j)
      ((contrEquiv1 dot_S512x256_S512x256_S512x512_1_1_0_0_n_n 256 rfl rfl).symm d) = ix2 i d := by
    funext ax; apply Fin.ext
    match ax with
    | ⟨0, _⟩ => simp [DotDims.lhsIdx, dot_S512x256_S512x256_S512x512_1_1_0_0_n_n]; rfl
    | ⟨1, _⟩ => simp [DotDims.lhsIdx, dot_S512x256_S512x256_S512x512_1_1_0_0_n_n]; exact c
  have r : dot_S512x256_S512x256_S512x512_1_1_0_0_n_n.rhsIdx (ix2 i j)
      ((contrEquiv1 dot_S512x256_S512x256_S512x512_1_1_0_0_n_n 256 rfl rfl).symm d) = ix2 j d := by
    funext ax; apply Fin.ext
    match ax with
    | ⟨0, _⟩ => simp [DotDims.rhsIdx, dot_S512x256_S512x256_S512x512_1_1_0_0_n_n]; rfl
    | ⟨1, _⟩ => simp [DotDims.rhsIdx, dot_S512x256_S512x256_S512x512_1_1_0_0_n_n]; exact c
  rw [l, r]

/-- A `[512, 512]` matrix times a `[512, 256]` one, into zero: entry `(i, d)` is `Σ_j A i j · B j d`. -/
theorem matmul_plain_apply {φ₁ φ₂ : FTy} (A : FVec Ideal S512x512 φ₁) (B : FVec Ideal S512x256 φ₂) (i : Fin 512) (d : Fin 256) :
    matmul dot_S512x512_S512x256_S512x256_1_0_0_1_n_n none A B (constant S512x256 .f32 0x00000000#32) (ix2 i d)
      = ∑ j : Fin 512, A (ix2 i j) * B (ix2 j d) := by
  refine (Ideal.matmul_constant_zero_apply dot_S512x512_S512x256_S512x256_1_0_0_1_n_n none A B (ix2 i d)).trans ?_
  rw [← Equiv.sum_comp (contrEquiv1 dot_S512x512_S512x256_S512x256_1_0_0_1_n_n 512 rfl rfl).symm]
  refine Finset.sum_congr rfl fun j _ => ?_
  have c := contrEquiv1_symm_val dot_S512x512_S512x256_S512x256_1_0_0_1_n_n 512 rfl rfl j
  have l : dot_S512x512_S512x256_S512x256_1_0_0_1_n_n.lhsIdx (ix2 i d)
      ((contrEquiv1 dot_S512x512_S512x256_S512x256_1_0_0_1_n_n 512 rfl rfl).symm j) = ix2 i j := by
    funext ax; apply Fin.ext
    match ax with
    | ⟨0, _⟩ => simp [DotDims.lhsIdx, dot_S512x512_S512x256_S512x256_1_0_0_1_n_n]; rfl
    | ⟨1, _⟩ => simp [DotDims.lhsIdx, dot_S512x512_S512x256_S512x256_1_0_0_1_n_n]; exact c
  have r : dot_S512x512_S512x256_S512x256_1_0_0_1_n_n.rhsIdx (ix2 i d)
      ((contrEquiv1 dot_S512x512_S512x256_S512x256_1_0_0_1_n_n 512 rfl rfl).symm j) = ix2 j d := by
    funext ax; apply Fin.ext
    match ax with
    | ⟨0, _⟩ => simp [DotDims.rhsIdx, dot_S512x512_S512x256_S512x256_1_0_0_1_n_n]; exact c
    | ⟨1, _⟩ => simp [DotDims.rhsIdx, dot_S512x512_S512x256_S512x256_1_0_0_1_n_n]; rfl
  rw [l, r]

/-! ## The scores -/

theorem raw_apply (v1 : FVec Ideal S512x256 .f32) (a : Vec Ideal S256x1 .f32) (i j : Fin 512) :
    raw v1 (truncf .bf16 v1 bitsLt_bf16_f32) a (ix2 i j)
      = edge (fun i d => v1 (ix2 i d)) (fun d => a (ix2 d (0 : Fin 1))) i j := by
  unfold raw edge
  refine (matmul_rows_apply _ _ i j).trans (Finset.sum_congr rfl fun d _ => ?_)
  show v1 (ix2 i d) * overRows a (ix2 i d) * v1 (ix2 j d) = _
  rw [overRows_apply]

theorem rect_apply (e : FVec Ideal S512x512 .f32) (ι : S512x512.Idx) : rect e ι = leaky .ogt (e ι) := rfl

theorem scoresK_apply (v1 : FVec Ideal S512x256 .f32) (v3 : IVec S512x512 32) (a0 a1 a2 a3 : Vec Ideal S256x1 .f32)
    (i j : Fin 512) :
    scoresK v1 v3 (truncf .bf16 v1 bitsLt_bf16_f32) a0 a1 a2 a3 (ix2 i j)
      = score .ogt (fun i d => v1 (ix2 i d)) (fun i j => v3 (ix2 i j)) (fun d => a0 (ix2 d (0 : Fin 1)))
          (fun d => a1 (ix2 d (0 : Fin 1))) (fun d => a2 (ix2 d (0 : Fin 1))) (fun d => a3 (ix2 d (0 : Fin 1))) i j := by
  unfold scoresK score
  show Scalar.select (IntOp.cmpi .eq (v3 (ix2 i j)) 4#32) (leaky .ogt (raw v1 _ a3 (ix2 i j)))
      (Scalar.select (IntOp.cmpi .eq (v3 (ix2 i j)) 3#32) (leaky .ogt (raw v1 _ a2 (ix2 i j)))
        (Scalar.select (IntOp.cmpi .eq (v3 (ix2 i j)) 2#32) (leaky .ogt (raw v1 _ a1 (ix2 i j)))
          (Scalar.select (IntOp.cmpi .eq (v3 (ix2 i j)) 1#32) (leaky .ogt (raw v1 _ a0 (ix2 i j))) fillW))) = _
  rw [raw_apply, raw_apply, raw_apply, raw_apply]

/-! ## The softmax of a row -/

theorem alongRowK_apply (v : FVec Ideal S512 .f32) (i j : Fin 512) : alongRowK v (ix2 i j) = v (ix1 i) :=
  (Cert.ColumnForms.broadcastTo_a1_ab_apply _ broadcasts_S512x1_S512x512 i j).trans
    (Cert.ColumnForms.shapeCast_a_a1_apply v shapeCasts_S512_S512x1 i (0 : Fin 1))

theorem exposK_apply (s : FVec Ideal S512x512 .f32) (i j : Fin 512) :
    exposK s (ix2 i j) = expo (fun i j => s (ix2 i j)) i j := by
  unfold exposK expo rowMax
  show Ideal.exp (s (ix2 i j) - alongRowK _ (ix2 i j)) = _
  rw [alongRowK_apply]
  exact congrArg (fun z => Ideal.exp (s (ix2 i j) - z)) (Cert.RowForms.multiReduction_max_rows s reduces_S512x512_S512 i)

theorem weightsK_apply (s : FVec Ideal S512x512 .f32) (i j : Fin 512) :
    weightsK s (ix2 i j) = weight (fun i j => s (ix2 i j)) i j := by
  unfold weightsK weight
  show Ideal.div (exposK s (ix2 i j)) (alongRowK _ (ix2 i j)) = _
  rw [alongRowK_apply, exposK_apply]
  refine congrArg (Ideal.div _) ?_
  exact (Cert.RowForms.multiReduction_add_rows (exposK s) reduces_S512x512_S512 i).trans
    (Finset.sum_congr rfl fun k _ => exposK_apply s i k)

/-! ## The block's result -/

theorem scores_fun (x0 : Vec Ideal S1x512x256 .f32) (x1 : Vec Ideal S1x512x512 .i32) (x2 x3 x4 x5 : Vec Ideal S256x1 .f32) :
    (fun i j => scoresK (nodes x0) (types x1) (truncf .bf16 (nodes x0) bitsLt_bf16_f32) x2 x3 x4 x5 (ix2 i j))
      = score .ogt (fun i d => x0 (ix3 (0 : Fin 1) i d)) (fun i j => x1 (ix3 (0 : Fin 1) i j))
          (fun d => x2 (ix2 d (0 : Fin 1))) (fun d => x3 (ix2 d (0 : Fin 1))) (fun d => x4 (ix2 d (0 : Fin 1)))
          (fun d => x5 (ix2 d (0 : Fin 1))) := by
  funext i j
  rw [scoresK_apply]
  have e0 : (fun i d => nodes x0 (ix2 i d)) = fun i d => x0 (ix3 (0 : Fin 1) i d) :=
    funext fun i => funext fun d => nodes_apply x0 i d
  have e1 : (fun i j => types x1 (ix2 i j)) = fun i j => x1 (ix3 (0 : Fin 1) i j) :=
    funext fun i => funext fun j => types_apply x1 i j
  rw [e0, e1]

/-- Entry `(i, d)` of the block the body stores is the attention of row `i`, feature `d`, from the block's own rows. -/
theorem pointOut_apply (x0 : Vec Ideal S1x512x256 .f32) (x1 : Vec Ideal S1x512x512 .i32) (x2 x3 x4 x5 : Vec Ideal S256x1 .f32)
    (u : Fin 1) (i : Fin 512) (d : Fin 256) :
    pointOut x0 x1 x2 x3 x4 x5 (ix3 u i d)
      = attend
          (score .ogt (fun i d => x0 (ix3 (0 : Fin 1) i d)) (fun i j => x1 (ix3 (0 : Fin 1) i j))
            (fun d => x2 (ix2 d (0 : Fin 1))) (fun d => x3 (ix2 d (0 : Fin 1))) (fun d => x4 (ix2 d (0 : Fin 1)))
            (fun d => x5 (ix2 d (0 : Fin 1))))
          (fun j d => x0 (ix3 (0 : Fin 1) j d)) i d := by
  unfold pointOut attend
  refine (shapeCast_ab_1ab_apply _ shapeCasts_S512x256_S1x512x256 u i d).trans ?_
  refine (matmul_plain_apply _ _ i d).trans (Finset.sum_congr rfl fun j _ => ?_)
  show weightsK _ (ix2 i j) * nodes x0 (ix2 j d) = _
  rw [weightsK_apply, nodes_apply, scores_fun]

end Cert.KernelIdeal.PointValue

end
-- ==== Proof.KernelPoint.lean ====
/-
  What one grid point leaves in the output block.

  The kernel body loads its whole input blocks, computes, and stores one whole block: the stored value, as a function of
  the loaded blocks, is the attention of the batch element the blocks hold (`PointValue.pointOut`).
-/
import proofs.«117791_j9509057593867_1_alg».proof.Proof.Gen.KernelIdeal.Frame
import proofs.«117791_j9509057593867_1_alg».proof.Proof.KernelOps
import Idealize.ShloMosaic.Lib.Pipeline.Value

noncomputable section

namespace Cert.KernelIdeal.PointValue

open Cert.KernelIdeal Cert.KernelIdeal.Gen Idealize.ShloMosaic Idealize.ShloMosaic.ValueIdx

theorem zero3 : (![0, 0, 0] : Fin 3 → Nat) = fun _ => 0 := funext fun a => by fin_cases a <;> rfl
theorem zero2 : (![0, 0] : Fin 2 → Nat) = fun _ => 0 := funext fun a => by fin_cases a <;> rfl

/-- The body's stores are one store of the whole block, and its loads read the whole input blocks: the block after the
    body is the body's arithmetic of the input blocks. -/
theorem out_eq (x0 : Vec Ideal S1x512x256 .f32) (x1 : Vec Ideal S1x512x512 .i32) (x2 x3 x4 x5 : Vec Ideal S256x1 .f32) :
    out0_6 x0 x1 x2 x3 x4 x5 = pointOut x0 x1 x2 x3 x4 x5 := by
  unfold out0_6
  rw [View.canon_unit_zero zero3]
  simp only [View.ld_unit_zero (S := S1x512x256) zero3, View.ld_unit_zero (S := S1x512x512) zero3,
    View.ld_unit_zero (S := S256x1) zero2]
  rfl

end Cert.KernelIdeal.PointValue

end
-- ==== Proof.KernelArray.lean ====
/-
  From the blocks to the array: the kernel's result as one function of its arguments.

  The grid has 32 points, one per batch element. Point `t` reads batch element `t` of the features and of the edge
  types — block `(t, 0, 0)` of each — and the four weighting columns whole, and writes block `(t, 0, 0)` of the result.
  So what point `t` writes back is batch element `t` of the specification `G` of the arguments, and the 32 blocks cover the
  result array: after the run it holds `G` of the arguments.
-/
import proofs.«117791_j9509057593867_1_alg».proof.Proof.Gen.KernelIdeal.Value
import proofs.«117791_j9509057593867_1_alg».proof.Proof.KernelPoint
import Idealize.ShloMosaic.Lib.Pipeline.Value

noncomputable section

open Idealize.ShloMosaic Idealize.ShloMosaic.TcCoe Idealize.SL.Sem
open Idealize.ShloMosaic.Pipeline (Dat)

namespace Cert.KernelIdeal.ArrayValue

open Cert.KernelIdeal Cert.KernelIdeal.Gen Cert.KernelIdeal.Value Cert.KernelIdeal.PointValue
open Idealize.ShloMosaic.ValueIdx Cert.EdgeAttention

variable (m : (ℓ : Loc nD τ sig) → Buf (Elt Ideal) ℓ) (ρ : Dev nD → PrngReg)

/-- The printed index maps over the grid: the features', the edge types' and the result's block index is `(t, 0, 0)`,
    each weighting column's `(0, 0)`. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 3) = t.val ∧ win0_6.index t (1 : Fin 3) = 0 ∧ win0_6.index t (2 : Fin 3) = 0) :=
  (by decide +kernel : ∀ t : Fin grid0.N, _)

/-- The features' block at point `t` is batch element `t` of the features. -/
theorem iblk0_apply (c : Dev nD) (t : Fin cfg0.N) (b : Fin 32) (hb : b.val = t.val) (u : Fin 1) (i : Fin 512) (d : Fin 256) :
    (iblk m c 0 t : Vec Ideal S1x512x256 .f32) (ix3 u i d)
      = (m ((c : Thread nD τ).loc main_arg0) : S32x512x256.Idx → Elt Ideal .f32) (ix3 b i d) := by
  obtain ⟨⟨e0, e1, e2⟩, -⟩ := idx_facts t
  unfold iblk
  rw [View.read_apply]
  show V m c main_arg0 _ = m ((c : Thread nD τ).loc main_arg0) _
  unfold V
  refine congrArg _ ?_
  funext a
  apply Fin.ext
  have hu : u.val = 0 := by omega
  match a with
  | ⟨0, _⟩ => show win0_0.index t 0 * 1 + 1 * u.val = b.val; omega
  | ⟨1, _⟩ => show win0_0.index t 1 * 512 + 1 * i.val = i.val; omega
  | ⟨2, _⟩ => show win0_0.index t 2 * 256 + 1 * d.val = d.val; omega

/-- The edge types' block at point `t` is batch element `t` of the edge types. -/
theorem iblk1_apply (c : Dev nD) (t : Fin cfg0.N) (b : Fin 32) (hb : b.val = t.val) (u : Fin 1) (i j : Fin 512) :
    (iblk m c 1 t : Vec Ideal S1x512x512 .i32) (ix3 u i j)
      = (m ((c : Thread nD τ).loc main_arg1) : S32x512x512.Idx → Elt Ideal .i32) (ix3 b i j) := by
  obtain ⟨-, ⟨e0, e1, e2⟩, -⟩ := idx_facts t
  unfold iblk
  rw [View.read_apply]
  show V m c main_arg1 _ = m ((c : Thread nD τ).loc main_arg1) _
  unfold V
  refine congrArg _ ?_
  funext a
  apply Fin.ext
  have hu : u.val = 0 := by omega
  match a with
  | ⟨0, _⟩ => show win0_1.index t 0 * 1 + 1 * u.val = b.val; omega
  | ⟨1, _⟩ => show win0_1.index t 1 * 512 + 1 * i.val = i.val; omega
  | ⟨2, _⟩ => show win0_1.index t 2 * 512 + 1 * j.val = j.val; omega

/-- Each weighting column's block, at every point, is the column. -/
theorem iblk2_apply (c : Dev nD) (t : Fin cfg0.N) (d : Fin 256) (u : Fin 1) :
    (iblk m c 2 t : Vec Ideal S256x1 .f32) (ix2 d u)
      = (m ((c : Thread nD τ).loc main_arg2) : S256x1.Idx → Elt Ideal .f32) (ix2 d u) := by
  obtain ⟨-, -, ⟨e0, e1⟩, -⟩ := idx_facts t
  unfold iblk
  rw [View.read_apply]
  show V m c main_arg2 _ = m ((c : Thread nD τ).loc main_arg2) _
  unfold V
  refine congrArg _ ?_
  funext a
  apply Fin.ext
  match a with
  | ⟨0, _⟩ => show win0_2.index t 0 * 256 + 1 * d.val = d.val; omega
  | ⟨1, _⟩ => show win0_2.index t 1 * 1 + 1 * u.val = u.val; omega

theorem iblk3_apply (c : Dev nD) (t : Fin cfg0.N) (d : Fin 256) (u : Fin 1) :
    (iblk m c 3 t : Vec Ideal S256x1 .f32) (ix2 d u)
      = (m ((c : Thread nD τ).loc main_arg3) : S256x1.Idx → Elt Ideal .f32) (ix2 d u) := by
  obtain ⟨-, -, -, ⟨e0, e1⟩, -⟩ := idx_facts t
  unfold iblk
  rw [View.read_apply]
  show V m c main_arg3 _ = m ((c : Thread nD τ).loc main_arg3) _
  unfold V
  refine congrArg _ ?_
  funext a
  apply Fin.ext
  match a with
  | ⟨0, _⟩ => show win0_3.index t 0 * 256 + 1 * d.val = d.val; omega
  | ⟨1, _⟩ => show win0_3.index t 1 * 1 + 1 * u.val = u.val; omega

theorem iblk4_apply (c : Dev nD) (t : Fin cfg0.N) (d : Fin 256) (u : Fin 1) :
    (iblk m c 4 t : Vec Ideal S256x1 .f32) (ix2 d u)
      = (m ((c : Thread nD τ).loc main_arg4) : S256x1.Idx → Elt Ideal .f32) (ix2 d u) := by
  obtain ⟨-, -, -, -, ⟨e0, e1⟩, -⟩ := idx_facts t
  unfold iblk
  rw [View.read_apply]
  show V m c main_arg4 _ = m ((c : Thread nD τ).loc main_arg4) _
  unfold V
  refine congrArg _ ?_
  funext a
  apply Fin.ext
  match a with
  | ⟨0, _⟩ => show win0_4.index t 0 * 256 + 1 * d.val = d.val; omega
  | ⟨1, _⟩ => show win0_4.index t 1 * 1 + 1 * u.val = u.val; omega

theorem iblk5_apply (c : Dev nD) (t : Fin cfg0.N) (d : Fin 256) (u : Fin 1) :
    (iblk m c 5 t : Vec Ideal S256x1 .f32) (ix2 d u)
      = (m ((c : Thread nD τ).loc main_arg5) : S256x1.Idx → Elt Ideal .f32) (ix2 d u) := by
  obtain ⟨-, -, -, -, -, ⟨e0, e1⟩, -⟩ := idx_facts t
  unfold iblk
  rw [View.read_apply]
  show V m c main_arg5 _ = m ((c : Thread nD τ).loc main_arg5) _
  unfold V
  refine congrArg _ ?_
  funext a
  apply Fin.ext
  match a with
  | ⟨0, _⟩ => show win0_5.index t 0 * 256 + 1 * d.val = d.val; omega
  | ⟨1, _⟩ => show win0_5.index t 1 * 1 + 1 * u.val = u.val; omega

/-- The specification of the arguments as launched. -/
abbrev spec (c : Dev nD) : S32x512x256.Idx → Elt Ideal .f32 :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- What point `t` writes back is block `t` of the specification: batch element `t`'s attention. -/
theorem flushed_eq (c : Dev nD) (t : Fin cfg0.N) :
    (dats m 0 c).flushed 6 t = ((cfg0.win 6).blk t).view.read (Elt Ideal) (spec m c) := by
  have hN : cfg0.N = 32 := N_0
  have htl : t.val < 32 := by have := t.isLt; omega
  obtain ⟨-, -, -, -, -, -, ⟨e0, e1, e2⟩⟩ := idx_facts t
  rw [Value.flushed6, out_eq]
  funext y
  obtain ⟨u, i, d, rfl⟩ : ∃ (u : Fin 1) (i : Fin 512) (d : Fin 256), (y : S1x512x256.Idx) = ix3 u i d :=
    ⟨y 0, y 1, y 2, eq_ix3 y⟩
  have hu : u.val = 0 := by omega
  have hemb : ((cfg0.win 6).blk t).view.emb (ix3 u i d) = (ix3 (⟨t.val, htl⟩ : Fin 32) i d : S32x512x256.Idx) := by
    funext a
    apply Fin.ext
    match a with
    | ⟨0, _⟩ => show win0_6.index t 0 * 1 + 1 * u.val = t.val; omega
    | ⟨1, _⟩ => show win0_6.index t 1 * 512 + 1 * i.val = i.val; omega
    | ⟨2, _⟩ => show win0_6.index t 2 * 256 + 1 * d.val = d.val; omega
  have eH : (fun (i : Fin 512) (d : Fin 256) => (iblk m c 0 t : Vec Ideal S1x512x256 .f32) (ix3 (0 : Fin 1) i d))
      = fun i d => (m ((c : Thread nD τ).loc main_arg0) : S32x512x256.Idx → Elt Ideal .f32) (ix3 (⟨t.val, htl⟩ : Fin 32) i d) :=
    funext fun i => funext fun d => iblk0_apply m c t ⟨t.val, htl⟩ rfl 0 i d
  have eA : (fun (i j : Fin 512) => (iblk m c 1 t : Vec Ideal S1x512x512 .i32) (ix3 (0 : Fin 1) i j))
      = fun i j => (m ((c : Thread nD τ).loc main_arg1) : S32x512x512.Idx → Elt Ideal .i32) (ix3 (⟨t.val, htl⟩ : Fin 32) i j) :=
    funext fun i => funext fun j => iblk1_apply m c t ⟨t.val, htl⟩ rfl 0 i j
  have e2' : (fun (d : Fin 256) => (iblk m c 2 t : Vec Ideal S256x1 .f32) (ix2 d (0 : Fin 1)))
      = fun d => (m ((c : Thread nD τ).loc main_arg2) : S256x1.Idx → Elt Ideal .f32) (ix2 d (0 : Fin 1)) :=
    funext fun d => iblk2_apply m c t d 0
  have e3' : (fun (d : Fin 256) => (iblk m c 3 t : Vec Ideal S256x1 .f32) (ix2 d (0 : Fin 1)))
      = fun d => (m ((c : Thread nD τ).loc main_arg3) : S256x1.Idx → Elt Ideal .f32) (ix2 d (0 : Fin 1)) :=
    funext fun d => iblk3_apply m c t d 0
  have e4' : (fun (d : Fin 256) => (iblk m c 4 t : Vec Ideal S256x1 .f32) (ix2 d (0 : Fin 1)))
      = fun d => (m ((c : Thread nD τ).loc main_arg4) : S256x1.Idx → Elt Ideal .f32) (ix2 d (0 : Fin 1)) :=
    funext fun d => iblk4_apply m c t d 0
  have e5' : (fun (d : Fin 256) => (iblk m c 5 t : Vec Ideal S256x1 .f32) (ix2 d (0 : Fin 1)))
      = fun d => (m ((c : Thread nD τ).loc main_arg5) : S256x1.Idx → Elt Ideal .f32) (ix2 d (0 : Fin 1)) :=
    funext fun d => iblk5_apply m c t d 0
  show pointOut (iblk m c 0 t) (iblk m c 1 t) (iblk m c 2 t) (iblk m c 3 t) (iblk m c 4 t) (iblk m c 5 t) (ix3 u i d)
    = spec m c (((cfg0.win 6).blk t).view.emb (ix3 u i d))
  rw [hemb]
  refine (pointOut_apply (iblk m c 0 t) (iblk m c 1 t) (iblk m c 2 t) (iblk m c 3 t) (iblk m c 4 t) (iblk m c 5 t) u i d).trans ?_
  rw [eH, eA, e2', e3', e4', e5', score_ogt_eq_oge]
  rfl

/-- Every index of the result lies in the block of the point of its batch element. -/
theorem cover (ι : S32x512x256.Idx) :
    ∃ t : Fin cfg0.N, (cfg0.win 6).flush t = true ∧ ι ∈ ((cfg0.win 6).blk t).view.set := by
  have hN : cfg0.N = 32 := N_0
  have h0 : (ι 0).val < 32 := (ι 0).isLt
  have h1 : (ι 1).val < 512 := (ι 1).isLt
  have h2 : (ι 2).val < 256 := (ι 2).isLt
  obtain ⟨t, ht⟩ : ∃ t : Fin cfg0.N, t.val = (ι 0).val := ⟨⟨(ι 0).val, by omega⟩, rfl⟩
  refine ⟨t, flush0_6 t, ?_⟩
  obtain ⟨-, -, -, -, -, -, ⟨e0, e1, e2⟩⟩ := idx_facts t
  show ι ∈ ((View.whole main_v0).slice (win0_6.rect t)).set
  rw [View.set_slice_whole, Rect.mem_set_unit]
  intro a
  match a with
  | ⟨0, _⟩ =>
    show win0_6.index t 0 * 1 ≤ (ι 0).val ∧ (ι 0).val < win0_6.index t 0 * 1 + 1
    rw [e0]; omega
  | ⟨1, _⟩ =>
    show win0_6.index t 1 * 512 ≤ (ι 1).val ∧ (ι 1).val < win0_6.index t 1 * 512 + 512
    rw [e1]; omega
  | ⟨2, _⟩ =>
    show win0_6.index t 2 * 256 ≤ (ι 2).val ∧ (ι 2).val < win0_6.index t 2 * 256 + 256
    rw [e2]; omega

/-- The result array after the run is the specification of the arguments. -/
theorem final (c : Dev nD) : (dats m 0 c).arrAt 6 cfg0.N = spec m c :=
  (dats m 0 c).arrAt_eq_of_cover 6 (spec m c) (fun t _ => flushed_eq m c t) (cover)

/-- The run, read: the result array ends at the specification of the arguments, the arguments unchanged. -/
theorem run : θ_run defs (onTc (τ := τ) (main (F := Ideal))) ⟨m, fun _ => 0, ρ⟩ fun r => ∀ c : Dev nD,
      r.2.mem ((c : Thread nD τ).loc main_v0) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.ArrayValue

end
-- ==== Proof.RefTerm.lean ====
/-
  The reference's result as one function of its arguments, whole array by whole array.

  For each of the four weightings the reference spreads the weighting column over every node of every batch element,
  multiplies the node features by it, and contracts with the node features again: the raw scores `[32, 512, 512]`. It
  rectifies them (`x` where `x ≥ 0`, `slope · x` elsewhere), selects by edge type with the fill elsewhere, takes each
  row's maximum (once more capped below by minus infinity), exponentiates the differences, divides by each row's sum,
  and contracts the weights with the node features. The definitions below follow those host operations one for one.
-/
import proofs.«117791_j9509057593867_1_alg».proof.Proof.Gen.ReferenceIdeal

noncomputable section

namespace Cert.ReferenceIdeal.RefValue

open Cert.ReferenceIdeal Cert.ReferenceIdeal.Gen Idealize.ShloMosaic

variable {F : FTy → Type} [FloatOps F]

/-- A weighting column `[256, 1]` spread over every node of every batch element. -/
def spread (a : FVec F S256x1 .f32) : FVec F S32x512x256 .f32 :=
  broadcastInDim S32x512x256 ![0, 1, 2] bcast_S1x1x256_S32x512x256_0_1_2
    (broadcastInDim S1x1x256 ![2] bcast_S256_S1x1x256_2 (shapeCast S256 a shapeCasts_S256x1_S256))

/-- The raw scores under one weighting: the weighted features contracted with the features, batch element by batch element. -/
def rawScores (h : FVec F S32x512x256 .f32) (a : FVec F S256x1 .f32) : FVec F S32x512x512 .f32 :=
  Host.dotGeneral dot_S32x512x256_S32x512x256_S32x512x512_2_2_1_1_0_0 none (mulf h (spread a)) h

/-- The leaky rectifier, comparing by `≥`. -/
def rectify (e : FVec F S32x512x512 .f32) : FVec F S32x512x512 .f32 :=
  select (cmpf .oge e (broadcastInDim S32x512x512 ![] bcast_S_S32x512x512 (constant S_ .f32 0x00000000#32))) e
    (mulf (broadcastInDim S32x512x512 ![] bcast_S_S32x512x512 (constant S_ .f32 0x3E4CCCCD#32)) e)

/-- Where the edge type is `k`. -/
def isType (adj : IVec S32x512x512 32) (k : BitVec 32) : IVec S32x512x512 1 :=
  cmpi .eq adj (broadcastInDim S32x512x512 ![] bcast_S_S32x512x512 (constantI S_ 32 k))

/-- The scores: the rectified raw score of the pair's edge type, the fill where it has none. -/
def scores (h : FVec F S32x512x256 .f32) (adj : IVec S32x512x512 32) (a0 a1 a2 a3 : FVec F S256x1 .f32) :
    FVec F S32x512x512 .f32 :=
  select (isType adj 4#32) (rectify (rawScores h a3))
    (select (isType adj 3#32) (rectify (rawScores h a2))
      (select (isType adj 2#32) (rectify (rawScores h a1))
        (select (isType adj 1#32) (rectify (rawScores h a0))
          (broadcastInDim S32x512x512 ![] bcast_S_S32x512x512 (constant S_ .f32 0xD9FFCB9E#32)))))

/-- A per-row value `[32, 512]` copied along the row: `[32, 512, 512]`. -/
def alongRow (v : FVec F S32x512 .f32) : FVec F S32x512x512 .f32 :=
  broadcastInDim S32x512x512 ![0, 1, 2] bcast_S32x512x1_S32x512x512_0_1_2
    (broadcastInDim S32x512x1 ![0, 1] bcast_S32x512_S32x512x1_0_1 v)

/-- Each row's maximum, from minus infinity, capped below by minus infinity once more. -/
def rowMaxes (s : FVec F S32x512x512 .f32) : FVec F S32x512 .f32 :=
  maximumf (broadcastInDim S32x512 ![] bcast_S_S32x512 (constant S_ .f32 0xFF800000#32))
    (Host.reduce FloatOps.maximumf s (constant S_ .f32 0xFF800000#32) reducesTo_S32x512x512_S32x512_d2 h_S_)

/-- The exponentials of the scores less their rows' maxima. -/
def expos (s : FVec F S32x512x512 .f32) : FVec F S32x512x512 .f32 :=
  Host.exp (subf s (alongRow (rowMaxes s)))

/-- The softmax weights: each exponential over its row's sum. -/
def weights (s : FVec F S32x512x512 .f32) : FVec F S32x512x512 .f32 :=
  Host.divf (expos s)
    (alongRow (Host.reduceAdd (expos s) (constant S_ .f32 0x00000000#32) reducesTo_S32x512x512_S32x512_d2 h_S_))

/-- The reference's result. -/
def refOut (h : FVec F S32x512x256 .f32) (adj : IVec S32x512x512 32) (a0 a1 a2 a3 : FVec F S256x1 .f32) :
    FVec F S32x512x256 .f32 :=
  Host.dotGeneral dot_S32x512x512_S32x512x256_S32x512x256_2_1_1_2_0_0 none (weights (scores h adj a0 a1 a2 a3)) h

end Cert.ReferenceIdeal.RefValue

end
-- ==== Proof.RefRun.lean ====
/-
  The reference program's run.

  @main of the reference is a straight line of host operations once its calls are inlined: a call of a module-local
  function stands for the function's body at the call site, every value of an inlined body having a buffer of its own, so the
  sixty statements of @main — eight of them calls, four of the leaky rectifier (which itself calls the three-operand
  select), one of the select against a scalar fill, three of the select — are eighty-six operations, each reading the
  buffers of earlier ones and writing one buffer of its own. For each of the four weighting columns: the column
  reshaped and spread over every node of every batch element, the node features multiplied by it and contracted with
  the node features (the raw scores), the slope constant, and the rectifier's seven operations (the zero, its spread,
  the comparison, the slope converted and spread, the product, the select). Then, edge type by edge type, the type's
  constant, its spread, the comparison with the adjacency, and the select that keeps the rectified score of that type
  and otherwise what the previous types chose, the first of them against the spread fill. Last the softmax along each
  row — the row's maximum from minus infinity, capped below by minus infinity once more, spread back along the row,
  subtracted, exponentiated; the row's sum from zero, spread back, divided — and the contraction of the weights with
  the node features.

  Listed in order, the operations' fold over the launch contents gives what each buffer holds at the end: the result
  buffer the composed function `refOut` of the six argument arrays (the two format conversions inside the callees are
  the identity), each argument buffer what it held, no operation writing it. Every weakly fair execution of @main
  terminates in such a state.
-/
import proofs.«117791_j9509057593867_1_alg».proof.Proof.Gen.ReferenceIdeal
import proofs.«117791_j9509057593867_1_alg».proof.Proof.RefTerm
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's 86 operations, in order, the calls unfolded: per weighting column six of @main's own and the rectifier's
    seven over that call's record (the last of them the select's, over the record nested in it); per edge type three
    of @main's own and the select's one (for the first type the fill's conversion and spread before it, three over
    that call's record); then the softmax's fourteen and the last contraction. -/
abbrev ops : List (HloOp τ sig (Elt F)) :=
  [ -- the first weighting column: raw scores, then the rectifier over record main_call0
    reshape main_arg2 main_v0 rfl shapeCasts_S256x1_S256,
    unary main_v0 main_v1 (broadcastInDim S1x1x256 ![2] bcast_S256_S1x1x256_2 : (⟨S256, .f32⟩ : BufTy).Contents (Elt F) → (⟨S1x1x256, .f32⟩ : BufTy).Contents (Elt F)),
    unary main_v1 main_v2 (broadcastInDim S32x512x256 ![0, 1, 2] bcast_S1x1x256_S32x512x256_0_1_2 : (⟨S1x1x256, .f32⟩ : BufTy).Contents (Elt F) → (⟨S32x512x256, .f32⟩ : BufTy).Contents (Elt F)),
    binary main_arg0 main_v2 main_v3 (mulf : (⟨S32x512x256, .f32⟩ : BufTy).Contents (Elt F) → (⟨S32x512x256, .f32⟩ : BufTy).Contents (Elt F) → (⟨S32x512x256, .f32⟩ : BufTy).Contents (Elt F)),
    binary main_v3 main_arg0 main_v4 ((fun l r => Host.dotGeneral dot_S32x512x256_S32x512x256_S32x512x512_2_2_1_1_0_0 none l r) : (⟨S32x512x256, .f32⟩ : BufTy).Contents (Elt F) → (⟨S32x512x256, .f32⟩ : BufTy).Contents (Elt F) → (⟨S32x512x512, .f32⟩ : BufTy).Contents (Elt F)),
    nullary main_cst (constant S_ .f32 0x3E4CCCCD#32),
    TRef.nullary main_call0.cst (constant S_ .f32 0x00000000#32),
    TRef.unary main_call0.cst main_call0.v0 (broadcastInDim S32x512x512 ![] bcast_S_S32x512x512),
    TRef.binary (.of main_v4) main_call0.v0 main_call0.v1 (cmpf .oge),
    TRef.unary (.of main_cst) main_call0.v2 id,
    TRef.unary main_call0.v2 main_call0.v3 (broadcastInDim S32x512x512 ![] bcast_S_S32x512x512),
    TRef.binary main_call0.v3 (.of main_v4) main_call0.v4 mulf,
    TRef.ternary main_call0.v1 (.of main_v4) main_call0.v4 main_call0.call0.v0 select,
    -- the second weighting column, record main_call1
    reshape main_arg3 main_v6 rfl shapeCasts_S256x1_S256,
    unary main_v6 main_v7 (broadcastInDim S1x1x256 ![2] bcast_S256_S1x1x256_2 : (⟨S256, .f32⟩ : BufTy).Contents (Elt F) → (⟨S1x1x256, .f32⟩ : BufTy).Contents (Elt F)),
    unary main_v7 main_v8 (broadcastInDim S32x512x256 ![0, 1, 2] bcast_S1x1x256_S32x512x256_0_1_2 : (⟨S1x1x256, .f32⟩ : BufTy).Contents (Elt F) → (⟨S32x512x256, .f32⟩ : BufTy).Contents (Elt F)),
    binary main_arg0 main_v8 main_v9 (mulf : (⟨S32x512x256, .f32⟩ : BufTy).Contents (Elt F) → (⟨S32x512x256, .f32⟩ : BufTy).Contents (Elt F) → (⟨S32x512x256, .f32⟩ : BufTy).Contents (Elt F)),
    binary main_v9 main_arg0 main_v10 ((fun l r => Host.dotGeneral dot_S32x512x256_S32x512x256_S32x512x512_2_2_1_1_0_0 none l r) : (⟨S32x512x256, .f32⟩ : BufTy).Contents (Elt F) → (⟨S32x512x256, .f32⟩ : BufTy).Contents (Elt F) → (⟨S32x512x512, .f32⟩ : BufTy).Contents (Elt F)),
    nullary main_cst_0 (constant S_ .f32 0x3E4CCCCD#32),
    TRef.nullary main_call1.cst (constant S_ .f32 0x00000000#32),
    TRef.unary main_call1.cst main_call1.v0 (broadcastInDim S32x512x512 ![] bcast_S_S32x512x512),
    TRef.binary (.of main_v10) main_call1.v0 main_call1.v1 (cmpf .oge),
    TRef.unary (.of main_cst_0) main_call1.v2 id,
    TRef.unary main_call1.v2 main_call1.v3 (broadcastInDim S32x512x512 ![] bcast_S_S32x512x512),
    TRef.binary main_call1.v3 (.of main_v10) main_call1.v4 mulf,
    TRef.ternary main_call1.v1 (.of main_v10) main_call1.v4 main_call1.call0.v0 select,
    -- the third weighting column, record main_call2
    reshape main_arg4 main_v12 rfl shapeCasts_S256x1_S256,
    unary main_v12 main_v13 (broadcastInDim S1x1x256 ![2] bcast_S256_S1x1x256_2 : (⟨S256, .f32⟩ : BufTy).Contents (Elt F) → (⟨S1x1x256, .f32⟩ : BufTy).Contents (Elt F)),
    unary main_v13 main_v14 (broadcastInDim S32x512x256 ![0, 1, 2] bcast_S1x1x256_S32x512x256_0_1_2 : (⟨S1x1x256, .f32⟩ : BufTy).Contents (Elt F) → (⟨S32x512x256, .f32⟩ : BufTy).Contents (Elt F)),
    binary main_arg0 main_v14 main_v15 (mulf : (⟨S32x512x256, .f32⟩ : BufTy).Contents (Elt F) → (⟨S32x512x256, .f32⟩ : BufTy).Contents (Elt F) → (⟨S32x512x256, .f32⟩ : BufTy).Contents (Elt F)),
    binary main_v15 main_arg0 main_v16 ((fun l r => Host.dotGeneral dot_S32x512x256_S32x512x256_S32x512x512_2_2_1_1_0_0 none l r) : (⟨S32x512x256, .f32⟩ : BufTy).Contents (Elt F) → (⟨S32x512x256, .f32⟩ : BufTy).Contents (Elt F) → (⟨S32x512x512, .f32⟩ : BufTy).Contents (Elt F)),
    nullary main_cst_1 (constant S_ .f32 0x3E4CCCCD#32),
    TRef.nullary main_call2.cst (constant S_ .f32 0x00000000#32),
    TRef.unary main_call2.cst main_call2.v0 (broadcastInDim S32x512x512 ![] bcast_S_S32x512x512),
    TRef.binary (.of main_v16) main_call2.v0 main_call2.v1 (cmpf .oge),
    TRef.unary (.of main_cst_1) main_call2.v2 id,
    TRef.unary main_call2.v2 main_call2.v3 (broadcastInDim S32x512x512 ![] bcast_S_S32x512x512),
    TRef.binary main_call2.v3 (.of main_v16) main_call2.v4 mulf,
    TRef.ternary main_call2.v1 (.of main_v16) main_call2.v4 main_call2.call0.v0 select,
    -- the fourth weighting column, record main_call3
    reshape main_arg5 main_v18 rfl shapeCasts_S256x1_S256,
    unary main_v18 main_v19 (broadcastInDim S1x1x256 ![2] bcast_S256_S1x1x256_2 : (⟨S256, .f32⟩ : BufTy).Contents (Elt F) → (⟨S1x1x256, .f32⟩ : BufTy).Contents (Elt F)),
    unary main_v19 main_v20 (broadcastInDim S32x512x256 ![0, 1, 2] bcast_S1x1x256_S32x512x256_0_1_2 : (⟨S1x1x256, .f32⟩ : BufTy).Contents (Elt F) → (⟨S32x512x256, .f32⟩ : BufTy).Contents (Elt F)),
    binary main_arg0 main_v20 main_v21 (mulf : (⟨S32x512x256, .f32⟩ : BufTy).Contents (Elt F) → (⟨S32x512x256, .f32⟩ : BufTy).Contents (Elt F) → (⟨S32x512x256, .f32⟩ : BufTy).Contents (Elt F)),
    binary main_v21 main_arg0 main_v22 ((fun l r => Host.dotGeneral dot_S32x512x256_S32x512x256_S32x512x512_2_2_1_1_0_0 none l r) : (⟨S32x512x256, .f32⟩ : BufTy).Contents (Elt F) → (⟨S32x512x256, .f32⟩ : BufTy).Contents (Elt F) → (⟨S32x512x512, .f32⟩ : BufTy).Contents (Elt F)),
    nullary main_cst_2 (constant S_ .f32 0x3E4CCCCD#32),
    TRef.nullary main_call3.cst (constant S_ .f32 0x00000000#32),
    TRef.unary main_call3.cst main_call3.v0 (broadcastInDim S32x512x512 ![] bcast_S_S32x512x512),
    TRef.binary (.of main_v22) main_call3.v0 main_call3.v1 (cmpf .oge),
    TRef.unary (.of main_cst_2) main_call3.v2 id,
    TRef.unary main_call3.v2 main_call3.v3 (broadcastInDim S32x512x512 ![] bcast_S_S32x512x512),
    TRef.binary main_call3.v3 (.of main_v22) main_call3.v4 mulf,
    TRef.ternary main_call3.v1 (.of main_v22) main_call3.v4 main_call3.call0.v0 select,
    -- edge type 1 against the fill, record main_call4
    nullary main_c (constantI S_ 32 1#32),
    unary main_c main_v24 (broadcastInDim S32x512x512 ![] bcast_S_S32x512x512 : (⟨S_, .i32⟩ : BufTy).Contents (Elt F) → (⟨S32x512x512, .i32⟩ : BufTy).Contents (Elt F)),
    binary main_arg1 main_v24 main_v25 (cmpi .eq : (⟨S32x512x512, .i32⟩ : BufTy).Contents (Elt F) → (⟨S32x512x512, .i32⟩ : BufTy).Contents (Elt F) → (⟨S32x512x512, .i1⟩ : BufTy).Contents (Elt F)),
    nullary main_cst_3 (constant S_ .f32 0xD9FFCB9E#32),
    TRef.unary (.of main_cst_3) main_call4.v0 id,
    TRef.unary main_call4.v0 main_call4.v1 (broadcastInDim S32x512x512 ![] bcast_S_S32x512x512),
    TRef.ternary (.of main_v25) (.of main_v5) main_call4.v1 main_call4.v2 select,
    -- edge type 2, record main_call5
    nullary main_c_4 (constantI S_ 32 2#32),
    unary main_c_4 main_v27 (broadcastInDim S32x512x512 ![] bcast_S_S32x512x512 : (⟨S_, .i32⟩ : BufTy).Contents (Elt F) → (⟨S32x512x512, .i32⟩ : BufTy).Contents (Elt F)),
    binary main_arg1 main_v27 main_v28 (cmpi .eq : (⟨S32x512x512, .i32⟩ : BufTy).Contents (Elt F) → (⟨S32x512x512, .i32⟩ : BufTy).Contents (Elt F) → (⟨S32x512x512, .i1⟩ : BufTy).Contents (Elt F)),
    TRef.ternary (.of main_v28) (.of main_v11) (.of main_v26) main_call5.v0 select,
    -- edge type 3, record main_call6
    nullary main_c_5 (constantI S_ 32 3#32),
    unary main_c_5 main_v30 (broadcastInDim S32x512x512 ![] bcast_S_S32x512x512 : (⟨S_, .i32⟩ : BufTy).Contents (Elt F) → (⟨S32x512x512, .i32⟩ : BufTy).Contents (Elt F)),
    binary main_arg1 main_v30 main_v31 (cmpi .eq : (⟨S32x512x512, .i32⟩ : BufTy).Contents (Elt F) → (⟨S32x512x512, .i32⟩ : BufTy).Contents (Elt F) → (⟨S32x512x512, .i1⟩ : BufTy).Contents (Elt F)),
    TRef.ternary (.of main_v31) (.of main_v17) (.of main_v29) main_call6.v0 select,
    -- edge type 4, record main_call7
    nullary main_c_6 (constantI S_ 32 4#32),
    unary main_c_6 main_v33 (broadcastInDim S32x512x512 ![] bcast_S_S32x512x512 : (⟨S_, .i32⟩ : BufTy).Contents (Elt F) → (⟨S32x512x512, .i32⟩ : BufTy).Contents (Elt F)),
    binary main_arg1 main_v33 main_v34 (cmpi .eq : (⟨S32x512x512, .i32⟩ : BufTy).Contents (Elt F) → (⟨S32x512x512, .i32⟩ : BufTy).Contents (Elt F) → (⟨S32x512x512, .i1⟩ : BufTy).Contents (Elt F)),
    TRef.ternary (.of main_v34) (.of main_v23) (.of main_v32) main_call7.v0 select,
    -- the softmax along each row
    nullary main_cst_7 (constant S_ .f32 0xFF800000#32),
    binary main_v35 main_cst_7 main_v36 ((fun x v => Host.reduce FloatOps.maximumf x v reducesTo_S32x512x512_S32x512_d2 h_S_) : (⟨S32x512x512, .f32⟩ : BufTy).Contents (Elt F) → (⟨S_, .f32⟩ : BufTy).Contents (Elt F) → (⟨S32x512, .f32⟩ : BufTy).Contents (Elt F)),
    nullary main_cst_8 (constant S_ .f32 0xFF800000#32),
    unary main_cst_8 main_v37 (broadcastInDim S32x512 ![] bcast_S_S32x512 : (⟨S_, .f32⟩ : BufTy).Contents (Elt F) → (⟨S32x512, .f32⟩ : BufTy).Contents (Elt F)),
    binary main_v37 main_v36 main_v38 (maximumf : (⟨S32x512, .f32⟩ : BufTy).Contents (Elt F) → (⟨S32x512, .f32⟩ : BufTy).Contents (Elt F) → (⟨S32x512, .f32⟩ : BufTy).Contents (Elt F)),
    unary main_v38 main_v39 (broadcastInDim S32x512x1 ![0, 1] bcast_S32x512_S32x512x1_0_1 : (⟨S32x512, .f32⟩ : BufTy).Contents (Elt F) → (⟨S32x512x1, .f32⟩ : BufTy).Contents (Elt F)),
    unary main_v39 main_v40 (broadcastInDim S32x512x512 ![0, 1, 2] bcast_S32x512x1_S32x512x512_0_1_2 : (⟨S32x512x1, .f32⟩ : BufTy).Contents (Elt F) → (⟨S32x512x512, .f32⟩ : BufTy).Contents (Elt F)),
    binary main_v35 main_v40 main_v41 (subf : (⟨S32x512x512, .f32⟩ : BufTy).Contents (Elt F) → (⟨S32x512x512, .f32⟩ : BufTy).Contents (Elt F) → (⟨S32x512x512, .f32⟩ : BufTy).Contents (Elt F)),
    unary main_v41 main_v42 (Host.exp : (⟨S32x512x512, .f32⟩ : BufTy).Contents (Elt F) → (⟨S32x512x512, .f32⟩ : BufTy).Contents (Elt F)),
    nullary main_cst_9 (constant S_ .f32 0x00000000#32),
    binary main_v42 main_cst_9 main_v43 ((fun x v => Host.reduceAdd x v reducesTo_S32x512x512_S32x512_d2 h_S_) : (⟨S32x512x512, .f32⟩ : BufTy).Contents (Elt F) → (⟨S_, .f32⟩ : BufTy).Contents (Elt F) → (⟨S32x512, .f32⟩ : BufTy).Contents (Elt F)),
    unary main_v43 main_v44 (broadcastInDim S32x512x1 ![0, 1] bcast_S32x512_S32x512x1_0_1 : (⟨S32x512, .f32⟩ : BufTy).Contents (Elt F) → (⟨S32x512x1, .f32⟩ : BufTy).Contents (Elt F)),
    unary main_v44 main_v45 (broadcastInDim S32x512x512 ![0, 1, 2] bcast_S32x512x1_S32x512x512_0_1_2 : (⟨S32x512x1, .f32⟩ : BufTy).Contents (Elt F) → (⟨S32x512x512, .f32⟩ : BufTy).Contents (Elt F)),
    binary main_v42 main_v45 main_v46 (Host.divf : (⟨S32x512x512, .f32⟩ : BufTy).Contents (Elt F) → (⟨S32x512x512, .f32⟩ : BufTy).Contents (Elt F) → (⟨S32x512x512, .f32⟩ : BufTy).Contents (Elt F)),
    -- the weights contracted with the node features
    binary main_v46 main_arg0 main_v47 ((fun l r => Host.dotGeneral dot_S32x512x512_S32x512x256_S32x512x256_2_1_1_2_0_0 none l r) : (⟨S32x512x512, .f32⟩ : BufTy).Contents (Elt F) → (⟨S32x512x256, .f32⟩ : BufTy).Contents (Elt F) → (⟨S32x512x256, .f32⟩ : BufTy).Contents (Elt F)) ]

-- eighty-six binds re-associated: the rewrite under the chain recurses once per statement
set_option maxRecDepth 4096 in
set_option maxHeartbeats 1600000 in
/-- @main is that straight line: its two windows, the functions' definitions unfolded at their calls and the records at
    their fields, both sides are one chain of operation steps once sequencing is reassociated. -/
theorem main_eq (c : Dev nD) : main (F := F) c = seq ops := by
  simp only [main, main_part0, main_part1, fn_leaky_relu.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨reshape_bufs_sub .., unary_bufs_sub .., unary_bufs_sub .., binary_bufs_sub .., binary_bufs_sub .., nullary_bufs_sub ..,
    nullary_bufs_sub .., unary_bufs_sub .., binary_bufs_sub .., unary_bufs_sub .., unary_bufs_sub .., binary_bufs_sub .., ternary_bufs_sub ..,
    reshape_bufs_sub .., unary_bufs_sub .., unary_bufs_sub .., binary_bufs_sub .., binary_bufs_sub .., nullary_bufs_sub ..,
    nullary_bufs_sub .., unary_bufs_sub .., binary_bufs_sub .., unary_bufs_sub .., unary_bufs_sub .., binary_bufs_sub .., ternary_bufs_sub ..,
    reshape_bufs_sub .., unary_bufs_sub .., unary_bufs_sub .., binary_bufs_sub .., binary_bufs_sub .., nullary_bufs_sub ..,
    nullary_bufs_sub .., unary_bufs_sub .., binary_bufs_sub .., unary_bufs_sub .., unary_bufs_sub .., binary_bufs_sub .., ternary_bufs_sub ..,
    reshape_bufs_sub .., unary_bufs_sub .., unary_bufs_sub .., binary_bufs_sub .., binary_bufs_sub .., nullary_bufs_sub ..,
    nullary_bufs_sub .., unary_bufs_sub .., binary_bufs_sub .., unary_bufs_sub .., unary_bufs_sub .., binary_bufs_sub .., ternary_bufs_sub ..,
    nullary_bufs_sub .., unary_bufs_sub .., binary_bufs_sub .., nullary_bufs_sub .., unary_bufs_sub .., unary_bufs_sub .., ternary_bufs_sub ..,
    nullary_bufs_sub .., unary_bufs_sub .., binary_bufs_sub .., ternary_bufs_sub ..,
    nullary_bufs_sub .., unary_bufs_sub .., binary_bufs_sub .., ternary_bufs_sub ..,
    nullary_bufs_sub .., unary_bufs_sub .., binary_bufs_sub .., ternary_bufs_sub ..,
    nullary_bufs_sub .., binary_bufs_sub .., nullary_bufs_sub .., unary_bufs_sub .., binary_bufs_sub .., unary_bufs_sub ..,
    unary_bufs_sub .., binary_bufs_sub .., unary_bufs_sub .., nullary_bufs_sub .., binary_bufs_sub .., unary_bufs_sub ..,
    unary_bufs_sub .., binary_bufs_sub .., binary_bufs_sub ..⟩

attribute [local irreducible] Host.reduce Host.reduceAdd Host.exp Host.divf broadcastInDim mulf subf maximumf select cmpf cmpi constant constantI shapeCast in
set_option maxRecDepth 8192 in
set_option maxHeartbeats 1600000 in
/-- The fold at the result buffer is `refOut` of the arguments' contents: each operation's result at its own buffer is
    its function of what its operands' buffers hold, and at any other buffer what was there, so reading the last
    contraction's buffer back through the line composes the operations' functions in the order `refOut` composes them;
    the two conversions are the identity, and a typed reference's transport at a literal reference is the identity too.
    The whole-array operations are kept folded meanwhile: the equation never looks inside them. -/
theorem out_eq (V : Valuation τ sig (Elt F)) :
    after ops V (main_v47 : DevRef τ sig)
      = refOut (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  after_results_simp
  rfl

set_option maxRecDepth 8192 in
set_option maxHeartbeats 1600000 in
/-- No operation writes an argument's buffer: it holds at the end what it held. -/
theorem arg0_eq (V : Valuation τ sig (Elt F)) :
    after ops V (main_arg0 : DevRef τ sig) = V (main_arg0 : DevRef τ sig) := by
  after_results_simp

set_option maxRecDepth 8192 in
set_option maxHeartbeats 1600000 in
theorem arg1_eq (V : Valuation τ sig (Elt F)) :
    after ops V (main_arg1 : DevRef τ sig) = V (main_arg1 : DevRef τ sig) := by
  after_results_simp

set_option maxRecDepth 8192 in
set_option maxHeartbeats 1600000 in
theorem arg2_eq (V : Valuation τ sig (Elt F)) :
    after ops V (main_arg2 : DevRef τ sig) = V (main_arg2 : DevRef τ sig) := by
  after_results_simp

set_option maxRecDepth 8192 in
set_option maxHeartbeats 1600000 in
theorem arg3_eq (V : Valuation τ sig (Elt F)) :
    after ops V (main_arg3 : DevRef τ sig) = V (main_arg3 : DevRef τ sig) := by
  after_results_simp

set_option maxRecDepth 8192 in
set_option maxHeartbeats 1600000 in
theorem arg4_eq (V : Valuation τ sig (Elt F)) :
    after ops V (main_arg4 : DevRef τ sig) = V (main_arg4 : DevRef τ sig) := by
  after_results_simp

set_option maxRecDepth 8192 in
set_option maxHeartbeats 1600000 in
theorem arg5_eq (V : Valuation τ sig (Elt F)) :
    after ops V (main_arg5 : DevRef τ sig) = V (main_arg5 : DevRef τ sig) := by
  after_results_simp

/-- On every device, for any float values, from any memory with zero counters: every weakly fair execution of
    @main terminates with the result buffer at `refOut` of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v47) = refOut (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v47).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _)⟩)
    (run_seq scopedRefs_eq scopedSems_eq defs main (fun _ => ops) main_eq (fun _ => ops_sub) m ρ)

end Cert.ReferenceIdeal.RefValue

end
-- ==== Proof.RefValue.lean ====
/-
  The reference's result read index by index, over the extended reals.

  The reference computes on whole arrays: it spreads each weighting column over every node of every batch element,
  contracts the weighted features with the features, rectifies, selects by edge type, takes row maxima, exponentiates
  the differences, normalizes by the row sums, and contracts the weights with the features. Each of these whole-array
  steps is read here at one index written by its coordinates (batch element `b`, nodes `i`, `j`, feature `d`):

    spread a (b, i, d)       = a (d, 0)
    rawScores h a (b, i, j)  = Σ_d h (b, i, d) · a (d, 0) · h (b, j, d)
    rectify e ι              = the leaky rectifier of e ι, comparing by ≥
    scores … (b, i, j)       = the rectified raw score of the pair's edge type, the fill where it has none
    rowMaxes s (b, i)        = the fold of max over row (b, i) from minus infinity
                               (capping it below by minus infinity once more changes nothing: −∞ is the least element)
    expos s (b, i, j)        = exp (s (b, i, j) − the row's maximum)
    weights s (b, i, j)      = that exponential over the sum of the row's exponentials
                               (the sum starts from the zero word, which is 0)
    refOut … (b, i, d)       = Σ_j weights (b, i, j) · h (b, j, d)

  Composed, these say that the reference's result is the attention over typed edges of the specification, batch element
  by batch element.
-/
import Idealize.ShloMosaic.PureOps.Ideal.Laws
import Idealize.ShloMosaic.Lib.ValueIdx
import Idealize.ShloMosaic.Lib.IdealHost
import Idealize.ShloMosaic.Lib.Pipeline.Value
import Idealize.ShloMosaic.Lib.StackMember
import proofs.«117791_j9509057593867_1_alg».proof.Proof.RefTerm
import proofs.«117791_j9509057593867_1_alg».proof.Proof.LibContractForms
import proofs.«117791_j9509057593867_1_alg».proof.Proof.Spec

noncomputable section

namespace Cert.ReferenceIdeal.RefIndex

open Cert.ReferenceIdeal Cert.ReferenceIdeal.Gen Cert.ReferenceIdeal.RefValue
open Idealize.ShloMosaic Idealize.ShloMosaic.ValueIdx
open Cert.EdgeAttention

/-! ## The weighting column spread over the nodes -/

/-- The spread column at `(b, i, d)` is the column at `(d, 0)`: the copy along the batch and node axes reads the unit
    coordinates `(0, 0, d)` of the `[1, 1, 256]` array, that array reads entry `d` of the `[256]` vector, and the vector's
    entry `d` sits at row-major position `d · 1 + 0` of the `[256, 1]` column. -/
theorem spread_apply (a : FVec Ideal S256x1 .f32) (b : Fin 32) (i : Fin 512) (d : Fin 256) :
    spread a (ix3 b i d) = a (ix2 d (0 : Fin 1)) := by
  unfold spread
  refine (broadcastInDim_apply _ _ _ (ix3 b i d) (ix3 (0 : Fin 1) (0 : Fin 1) d) ?_).trans ?_
  · intro ax
    match ax with
    | ⟨0, _⟩ => rfl
    | ⟨1, _⟩ => rfl
    | ⟨2, _⟩ => rfl
  refine (broadcastInDim_apply _ _ _ (ix3 (0 : Fin 1) (0 : Fin 1) d) (ix1 d) ?_).trans ?_
  · intro ax
    match ax with
    | ⟨0, _⟩ => rfl
  exact shapeCast_apply a _ (ix1 d) (ix2 d (0 : Fin 1)) (by
    rw [Shape.rowMajor_val_two, Shape.rowMajor_val_one]
    show d.val * 1 + 0 = d.val
    omega)

/-! ## The two batched products -/

/-- The raw score of `(i, j)` in batch element `b`: `Σ_d h (b, i, d) · a (d, 0) · h (b, j, d)`. -/
theorem rawScores_apply (h : FVec Ideal S32x512x256 .f32) (a : FVec Ideal S256x1 .f32) (b : Fin 32) (i j : Fin 512) :
    rawScores h a (ix3 b i j) = ∑ d : Fin 256, h (ix3 b i d) * a (ix2 d (0 : Fin 1)) * h (ix3 b j d) := by
  unfold rawScores
  refine (Cert.ContractForms.dotGeneral_stackT_apply dot_S32x512x256_S32x512x256_S32x512x512_2_2_1_1_0_0_wf none (mulf h (spread a)) h b i j).trans ?_
  refine Finset.sum_congr rfl fun d _ => ?_
  rw [mulf_apply, spread_apply]

/-- The same, named as the specification names it: the weighted inner product of nodes `i` and `j` of batch element `b`. -/
theorem rawScores_eq_edge (h : FVec Ideal S32x512x256 .f32) (a : FVec Ideal S256x1 .f32) (b : Fin 32) (i j : Fin 512) :
    rawScores h a (ix3 b i j) = edge (fun i d => h (ix3 b i d)) (fun d => a (ix2 d (0 : Fin 1))) i j :=
  rawScores_apply h a b i j

/-! ## The rectifier and the selection by edge type -/

/-- The rectified array at an index is the leaky rectifier of the element, comparing by `≥`: both constants are scalars
    copied everywhere, and every operation acts element by element. -/
theorem rectify_apply (e : FVec Ideal S32x512x512 .f32) (ι : S32x512x512.Idx) :
    rectify e ι = leaky .oge (e ι) := rfl

/-- The score of `(i, j)` in batch element `b`: the rectified raw score of the pair's edge type, the fill where it has
    none — the specification's score over batch element `b`'s features and edge types. -/
theorem scores_apply (h : FVec Ideal S32x512x256 .f32) (adj : IVec S32x512x512 32) (a0 a1 a2 a3 : FVec Ideal S256x1 .f32)
    (b : Fin 32) (i j : Fin 512) :
    scores h adj a0 a1 a2 a3 (ix3 b i j)
      = score .oge (fun i d => h (ix3 b i d)) (fun i j => adj (ix3 b i j)) (fun d => a0 (ix2 d (0 : Fin 1)))
          (fun d => a1 (ix2 d (0 : Fin 1))) (fun d => a2 (ix2 d (0 : Fin 1))) (fun d => a3 (ix2 d (0 : Fin 1))) i j := by
  unfold scores score
  simp only [select_apply, rectify_apply, rawScores_eq_edge]
  rfl

/-! ## A per-row value copied along the row -/

/-- A per-row value copied along the row reads, at `(b, i, j)`, the value of row `(b, i)`. -/
theorem alongRow_apply (v : FVec Ideal S32x512 .f32) (b : Fin 32) (i j : Fin 512) :
    alongRow v (ix3 b i j) = v (ix2 b i) := by
  unfold alongRow
  refine (broadcastInDim_apply _ _ _ (ix3 b i j) (ix3 b i (0 : Fin 1)) ?_).trans ?_
  · intro ax
    match ax with
    | ⟨0, _⟩ => rfl
    | ⟨1, _⟩ => rfl
    | ⟨2, _⟩ => rfl
  refine broadcastInDim_apply _ _ _ (ix3 b i (0 : Fin 1)) (ix2 b i) ?_
  intro ax
  match ax with
  | ⟨0, _⟩ => rfl
  | ⟨1, _⟩ => rfl

/-! ## The row reductions -/

/-- Dropping the last axis of `[32, 512, 512]` leaves `[32, 512]`. -/
theorem reduces_row : S32x512x512.Reduces [2] S32x512 := by decide

/-- The index `(b, i)` with the coordinate `k` put back on the last axis is `(b, i, k)`. -/
theorem lift_row (hR : S32x512x512.Reduces [2] S32x512) (b : Fin 32) (i : Fin 512) (k : Fin (S32x512x512.size 2)) :
    hR.lift (ix2 b i) k = ix3 b i (⟨k.val, k.isLt⟩ : Fin 512) := by
  funext c; apply Fin.ext
  match c with
  | ⟨0, _⟩ => rfl
  | ⟨1, _⟩ => rfl
  | ⟨2, _⟩ => rfl

/-- The word of minus infinity is the least extended real. -/
theorem botW_eq : botW = ⊥ := by simp [botW, Ideal.ofBits, Ideal.ieee]

/-- The maximum of row `(b, i)`: the fold of `max` over the row from minus infinity. The reference caps the fold below by
    minus infinity once more, which changes nothing since minus infinity is below everything. -/
theorem rowMaxes_apply (s : FVec Ideal S32x512x512 .f32) (b : Fin 32) (i : Fin 512) :
    rowMaxes s (ix2 b i) = rowMax (fun i j => s (ix3 b i j)) i := by
  unfold rowMaxes rowMax
  rw [maximumf_apply, broadcastInDim_scalar_apply, constant_apply,
    Host.reduce_eq_fold_single FloatOps.maximumf s _ reducesTo_S32x512x512_S32x512_d2 reduces_row h_S_]
  have hf : (s ∘ reduces_row.lift (ix2 b i)) = fun k : Fin 512 => s (ix3 b i k) :=
    funext fun k => congrArg s (lift_row reduces_row b i k)
  have e : (Finset.univ : Finset (Fin (S32x512x512.size 2))).fold FloatOps.maximumf
        (constant (F := Ideal) S_ .f32 0xFF800000#32 (Shape.Idx.first h_S_)) (s ∘ reduces_row.lift (ix2 b i))
      = (Finset.univ : Finset (Fin 512)).fold max botW (fun k => s (ix3 b i k)) :=
    congrArg (fun f => Finset.fold max botW f (Finset.univ : Finset (Fin 512))) hf
  rw [e]
  show max botW _ = _
  rw [botW_eq]
  exact max_eq_right bot_le

/-- The exponential at `(b, i, j)`: `exp` of the score less its row's maximum. -/
theorem expos_apply (s : FVec Ideal S32x512x512 .f32) (b : Fin 32) (i j : Fin 512) :
    expos s (ix3 b i j) = expo (fun i j => s (ix3 b i j)) i j := by
  unfold expos expo
  show FloatOps.hostUnary .exp (subf s (alongRow (rowMaxes s)) (ix3 b i j)) = _
  rw [Ideal.hostUnary_exp_def, subf_apply, alongRow_apply, rowMaxes_apply]

/-- The softmax weight at `(b, i, j)`: the exponential over the sum of the row's exponentials (the sum starts from the
    zero word, which is `0`). -/
theorem weights_apply (s : FVec Ideal S32x512x512 .f32) (b : Fin 32) (i j : Fin 512) :
    weights s (ix3 b i j) = weight (fun i j => s (ix3 b i j)) i j := by
  unfold weights weight
  rw [hostDivf_apply, alongRow_apply, hostReduceAdd_apply,
    Ideal.hostReduceAdd_single reducesTo_S32x512x512_S32x512_d2 reduces_row, constant_apply, Ideal.ofBits_zero_f32, zero_add,
    expos_apply]
  refine congrArg (Ideal.div _) ?_
  refine Finset.sum_congr rfl fun k _ => ?_
  rw [lift_row reduces_row b i k]
  exact expos_apply s b i _

/-! ## The result -/

/-- The result at `(b, i, d)`: `Σ_j weights (b, i, j) · h (b, j, d)` — the batched product contracting the weights' last
    axis with the features' node axis. -/
theorem refOut_apply (h : FVec Ideal S32x512x256 .f32) (adj : IVec S32x512x512 32) (a0 a1 a2 a3 : FVec Ideal S256x1 .f32)
    (b : Fin 32) (i : Fin 512) (d : Fin 256) :
    refOut h adj a0 a1 a2 a3 (ix3 b i d)
      = ∑ j : Fin 512, weights (scores h adj a0 a1 a2 a3) (ix3 b i j) * h (ix3 b j d) := by
  unfold refOut
  exact StackMember.dotGeneral_stack_apply dot_S32x512x512_S32x512x256_S32x512x256_2_1_1_2_0_0_wf none
    (weights (scores h adj a0 a1 a2 a3)) h b i d

/-- The reference's result is the specification's attention over typed edges: at `(b, i, d)` both are
    `Σ_j w (i, j) · h (b, j, d)` with `w` the softmax weights of batch element `b`'s scores. -/
theorem refOut_eq_G (h : FVec Ideal S32x512x256 .f32) (adj : IVec S32x512x512 32) (a0 a1 a2 a3 : FVec Ideal S256x1 .f32) :
    refOut (F := Ideal) h adj a0 a1 a2 a3 = Cert.EdgeAttention.G h adj a0 a1 a2 a3 := by
  funext ι
  obtain ⟨b, i, d, rfl⟩ : ∃ (b : Fin 32) (i : Fin 512) (d : Fin 256), ι = ix3 b i d := ⟨ι 0, ι 1, ι 2, eq_ix3 ι⟩
  rw [refOut_apply]
  show _ = attend
      (score .oge (fun i d => h (ix3 b i d)) (fun i j => adj (ix3 b i j)) (fun d => a0 (ix2 d (0 : Fin 1)))
        (fun d => a1 (ix2 d (0 : Fin 1))) (fun d => a2 (ix2 d (0 : Fin 1))) (fun d => a3 (ix2 d (0 : Fin 1))))
      (fun j d => h (ix3 b j d)) i d
  unfold attend
  refine Finset.sum_congr rfl fun j _ => ?_
  rw [weights_apply]
  have hS : (fun i j => scores h adj a0 a1 a2 a3 (ix3 b i j))
      = score .oge (fun i d => h (ix3 b i d)) (fun i j => adj (ix3 b i j)) (fun d => a0 (ix2 d (0 : Fin 1)))
        (fun d => a1 (ix2 d (0 : Fin 1))) (fun d => a2 (ix2 d (0 : Fin 1))) (fun d => a3 (ix2 d (0 : Fin 1))) :=
    funext fun i => funext fun j => scores_apply h adj a0 a1 a2 a3 b i j
  rw [hS]

end Cert.ReferenceIdeal.RefIndex

end
-- ==== Proof.lean ====
/-
  Attention over typed edges: a kernel gridded over the batch against the array-at-a-time reference.

  Both programs compute, for each of 32 batch elements, the attention of 512 nodes over one another: for each of four
  edge types a weighted inner product of the nodes' 256 features gives a raw score, passed through the leaky rectifier;
  the score of a pair is the rectified raw score of the pair's edge type and a large negative fill where it has none;
  the softmax of each row of scores weights the nodes' features, and the weighted sum is the result
  (`Cert.EdgeAttention.G`, Proof/Spec.lean).

  The kernel visits one batch element per grid point and stores that element's result block; the 32 blocks cover the
  result array, which therefore ends holding `G` of the arguments (Proof/KernelOps.lean, Proof/KernelPoint.lean,
  Proof/KernelArray.lean). The reference applies the same steps to whole arrays, and its result, read index by index, is
  `G` of the arguments as well (Proof/RefTerm.lean, Proof/RefRun.lean, Proof/RefValue.lean). Over the extended reals the
  two spellings differ in three places, none of which changes a value: the kernel rounds operands of its products to a
  shorter float format, which is the identity here; the kernel rectifies by `x > 0` and the reference by `x ≥ 0`, and
  at zero both branches give zero; the reference caps each row maximum below by minus infinity a second time. Sums are
  finite sums in a commutative monoid, so no order of summation matters, and no law used needs the inputs finite.
-/
import proofs.«117791_j9509057593867_1_alg».proof.Defs
import proofs.«117791_j9509057593867_1_alg».proof.Proof.Gen.Kernel
import proofs.«117791_j9509057593867_1_alg».proof.Proof.Gen.Kernel.Skeleton
import proofs.«117791_j9509057593867_1_alg».proof.Proof.Gen.Kernel.Launch
import proofs.«117791_j9509057593867_1_alg».proof.Proof.Gen.Kernel.Points
import proofs.«117791_j9509057593867_1_alg».proof.Proof.Gen.Kernel.Frame
import proofs.«117791_j9509057593867_1_alg».proof.Proof.Gen.KernelIdeal
import proofs.«117791_j9509057593867_1_alg».proof.Proof.Gen.KernelIdeal.Skeleton
import proofs.«117791_j9509057593867_1_alg».proof.Proof.Gen.KernelIdeal.Launch
import proofs.«117791_j9509057593867_1_alg».proof.Proof.Gen.KernelIdeal.Points
import proofs.«117791_j9509057593867_1_alg».proof.Proof.Gen.KernelIdeal.Frame
import proofs.«117791_j9509057593867_1_alg».proof.Proof.Gen.KernelIdeal.Value
import proofs.«117791_j9509057593867_1_alg».proof.Proof.Gen.ReferenceIdeal
import proofs.«117791_j9509057593867_1_alg».proof.Proof.Gen.Pre_finite_inputs
import proofs.«117791_j9509057593867_1_alg».proof.Proof.KernelArray
import proofs.«117791_j9509057593867_1_alg».proof.Proof.RefRun
import proofs.«117791_j9509057593867_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: it runs, and writes none of its arguments. -/
theorem frame_reference : Cert.frame_ReferenceIdeal := fun m ρ _ =>
  (θ_run Cert.ReferenceIdeal.defs _ _).mono (fun _ h c => (h c).2) (Cert.ReferenceIdeal.RefValue.run (F := Ideal) m ρ)

/-- The idealization rewrote no operation. -/
theorem preserves : Cert.preserves_Kernel_KernelIdeal := trivial

/-- From arguments that agree, the kernel's result array and the reference's both end at the specification `G` of the
    arguments: the kernel's block by block, the reference's as its composed term read index by index. -/
theorem algebraic : Cert.algebraic_KernelIdeal_ReferenceIdeal := by
  intro m ρ m' ρ' _ hagree
  refine ⟨fun c => Cert.KernelIdeal.ArrayValue.spec m c, Cert.KernelIdeal.ArrayValue.run m ρ, ?_⟩
  refine (θ_run Cert.ReferenceIdeal.defs _ _).mono (fun _ h c => ⟨(h c).1.trans ?_, (h c).2⟩)
    (Cert.ReferenceIdeal.RefValue.run (F := Ideal) m' ρ')
  obtain ⟨h0, h1, h2, h3, h4, h5⟩ := hagree c
  rw [Cert.ReferenceIdeal.RefIndex.refOut_eq_G, h0, h1, h2, h3, h4, h5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
